-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S64x64 : Shape := ⟨2, ![64, 64]⟩
abbrev S64 : Shape := ⟨1, ![64]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x8x2048x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S4x8x2048x64 : Shape := ⟨4, ![4, 8, 2048, 64]⟩
abbrev S64x64 : Shape := ⟨2, ![64, 64]⟩
abbrev S64 : Shape := ⟨1, ![64]⟩
abbrev S32x2048x64 : Shape := ⟨3, ![32, 2048, 64]⟩
abbrev S1x2048x64 : Shape := ⟨3, ![1, 2048, 64]⟩
abbrev S1x512x64 : Shape := ⟨3, ![1, 512, 64]⟩
abbrev S2048x64 : Shape := ⟨2, ![2048, 64]⟩
abbrev S1x64 : Shape := ⟨2, ![1, 64]⟩
abbrev S512x64 : Shape := ⟨2, ![512, 64]⟩
abbrev S512x2048 : Shape := ⟨2, ![512, 2048]⟩

abbrev nBuf : Space → Nat
  | .hbm => 10
  | .vmem => 12
  | .smem => 0
  | _ => 0

abbrev bufTy : (tb : Table) → Fin (tcTables nBuf tb) → BufTy
  | .hbm, ⟨0, _⟩ => ⟨S4x8x2048x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S32x2048x64, .f32⟩
  | .hbm, ⟨8, _⟩ => ⟨S32x2048x64, .f32⟩
  | .hbm, ⟨9, _⟩ => ⟨S4x8x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S64x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S1x512x64, .f32⟩
  | .local _ .vmem, ⟨9, _⟩ => ⟨S1x512x64, .f32⟩
  | .local _ .vmem, ⟨10, _⟩ => ⟨S2048x64, .bf16⟩
  | .local _ .vmem, ⟨11, _⟩ => ⟨S2048x64, .bf16⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c512_i32 : BitVec 32 := 512#32
  let v12 : BitVec 32 := Scalar.muli arg1 c512_i32
  v12
def k0_off1 (i : grid0.Coords) : Fin 3 → Nat :=
  let c0_9 : Index := 0#32
  let arg1 : BitVec 32 := BitVec.ofNat 32 (i 1).val
  let c512_i32 : BitVec 32 := 512#32
  let v12 : BitVec 32 := Scalar.muli arg1 c512_i32
  let v13 : BitVec 32 := v12
  let v14 : Index := Scalar.indexCast v13
  let c0_10 : Index := 0#32
  ![0, v14.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S4x8x2048x64_S32x2048x64 : S4x8x2048x64.ShapeCasts S32x2048x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S64_S64_0 : ∀ a, (![0] : Fin 1 → Nat) a + S64.size a ≤ S64.size a
  h_S64 : 0 < S64.numel
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S64_S1x64 : S64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  h_S1x512x64 : 0 < S1x512x64.numel
  shapeCasts_S1x512x64_S512x64 : S1x512x64.ShapeCasts S512x64
  broadcasts_S1x64_S512x64 : S1x64.Broadcasts S512x64
  inb_S1x512x64_S1x512x64_0_0_0 : ∀ a, (![0, 0, 0] : Fin 3 → Nat) a + S1x512x64.size a ≤ S1x512x64.size a
  shapeCasts_S512x64_S1x512x64 : S512x64.ShapeCasts S1x512x64
  shapeCasts_S32x2048x64_S4x8x2048x64 : S32x2048x64.ShapeCasts S4x8x2048x64
  dot_S2048x64_S64x64_S2048x64_1_1_0_0_n_n_wf : DotDims.WF S2048x64 S64x64 S2048x64 [1] [1] [0] [0] [] []
  dot_S512x64_S64x64_S512x64_1_1_0_0_n_n_wf : DotDims.WF S512x64 S64x64 S512x64 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x64.size a ≤ S1x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S32x2048x64.size a
  hwx0_0 : ∀ i : grid0.Coords, EltTy.bits .f32 = 32 ∨ (Rect.block (s := S32x2048x64) S1x2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x64.size a ≤ S32x2048x64.size a
  hwx0_7 : ∀ i : grid0.Coords, EltTy.bits .f32 = 32 ∨ (Rect.block (s := S32x2048x64) S1x512x64.size (cc0_transform_7 i) (hinb0_7 i)).WholeWords (EltTy.packing .f32)

variable [Facts₀]

def dot_S2048x64_S64x64_S2048x64_1_1_0_0_n_n : DotDims S2048x64 S64x64 S2048x64 where
  lhsContracting := [1]
  rhsContracting := [1]
  lhsNonContracting := [0]
  rhsNonContracting := [0]
  lhsBatch := []
  rhsBatch := []
  wf := dot_S2048x64_S64x64_S2048x64_1_1_0_0_n_n_wf
def dot_S512x64_S64x64_S512x64_1_1_0_0_n_n : DotDims S512x64 S64x64 S512x64 where
  lhsContracting := [1]
  rhsContracting := [1]
  lhsNonContracting := [0]
  rhsNonContracting := [0]
  lhsBatch := []
  rhsBatch := []
  wf := dot_S512x64_S64x64_S512x64_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x512x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S64x64 : Shape := ⟨2, ![64, 64]⟩
abbrev S64 : Shape := ⟨1, ![64]⟩
abbrev S1x1x1x64 : Shape := ⟨4, ![1, 1, 1, 64]⟩
abbrev S4x8x2048x2048 : Shape := ⟨4, ![4, 8, 2048, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S4x8x2048x64, .f32⟩
  | .hbm, ⟨8, _⟩ => ⟨S1x1x1x64, .f32⟩
  | .hbm, ⟨9, _⟩ => ⟨S4x8x2048x64, .f32⟩
  | .hbm, ⟨10, _⟩ => ⟨S4x8x2048x64, .f32⟩
  | .hbm, ⟨11, _⟩ => ⟨S4x8x2048x64, .f32⟩
  | .hbm, ⟨12, _⟩ => ⟨S1x1x1x64, .f32⟩
  | .hbm, ⟨13, _⟩ => ⟨S4x8x2048x64, .f32⟩
  | .hbm, ⟨14, _⟩ => ⟨S4x8x2048x64, .f32⟩
  | .hbm, ⟨15, _⟩ => ⟨S4x8x2048x2048, .f32⟩
  | .hbm, ⟨16, _⟩ => ⟨S_, .f32⟩
  | .hbm, ⟨17, _⟩ => ⟨S4x8x2048x2048, .f32⟩
  | .hbm, ⟨18, _⟩ => ⟨S4x8x2048x2048, .f32⟩
  | .hbm, ⟨19, _⟩ => ⟨S4x8x2048x64, .f32⟩
  | .hbm, ⟨20, _⟩ => ⟨S4x8x2048x64, .f32⟩
  | .hbm, ⟨21, _⟩ => ⟨S1x1x1x64, .f32⟩
  | .hbm, ⟨22, _⟩ => ⟨S4x8x2048x64, .f32⟩
  | .hbm, ⟨23, _⟩ => ⟨S4x8x2048x64, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_cst : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S64_S1x1x1x64_3 : S64.BroadcastsInDim S1x1x1x64 (![3] : Fin 1 → Fin S1x1x1x64.rank)
  bcast_S1x1x1x64_S4x8x2048x64_0_1_2_3 : S1x1x1x64.BroadcastsInDim S4x8x2048x64 (![0, 1, 2, 3] : Fin 4 → Fin S4x8x2048x64.rank)
  bcast_S_S4x8x2048x2048 : S_.BroadcastsInDim S4x8x2048x2048 (![] : Fin 0 → Fin S4x8x2048x2048.rank)
  dot_S4x8x2048x64_S64x64_S4x8x2048x64_3_1_012_0_n_n_wf : DotDims.WF S4x8x2048x64 S64x64 S4x8x2048x64 [3] [1] [0, 1, 2] [0] [] []
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S64x64_S4x8x2048x64_3_1_012_0_n_n : DotDims S4x8x2048x64 S64x64 S4x8x2048x64 where
  lhsContracting := [3]
  rhsContracting := [1]
  lhsNonContracting := [0, 1, 2]
  rhsNonContracting := [0]
  lhsBatch := []
  rhsBatch := []
  wf := dot_S4x8x2048x64_S64x64_S4x8x2048x64_3_1_012_0_n_n_wf
def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.GraphSpec.lean ====
/-
  One graph layer whose adjacency is a rectified similarity, entry by entry on the extended reals.

  For one graph with node features X (rows n, features f), three weight matrices W1, W2, W3 (rows h, columns f) and
  three biases B1, B2, B3:

    emb X W B n h  =  (Σ_f X n f · W h f) + B h                       a dense layer, row n, output feature h
    adj n m        =  max (Σ_h emb X W1 B1 n h · emb X W2 B2 m h, 0)   the rectified similarity of nodes n and m
    outK n o       =  (Σ_m adj n m · (Σ_f X m f · W3 o f)) + B3 o      project every node first, then aggregate
    outR n o       =  (Σ_f (Σ_m adj n m · X m f) · W3 o f) + B3 o      aggregate first, then project

  outK and outR differ by exchanging the two finite sums and by distributing a factor over a sum, which is valid
  when every entry is a real number (it can fail at ±∞).  The zero of the rectifier is kept as the float zero's
  value, the same term on both sides.
-/
import Idealize.ShloMosaic.PureOps.Ideal
import Idealize.ShloMosaic.Lib.ValueIdx

noncomputable section

open scoped BigOperators

namespace Cert.Graph

open Idealize.ShloMosaic

/-- The float zero, as an extended real. -/
abbrev zeroWord : EReal := Ideal.ofBits .f32 0x00000000#32

variable {ι κ : Type} [Fintype ι] [Fintype κ]

/-- A dense layer at row `n`, output feature `h`: the row's product with the weight row, plus the bias. -/
def emb (X : ι → κ → EReal) (W : κ → κ → EReal) (B : κ → EReal) (n : ι) (h : κ) : EReal :=
  (∑ f : κ, X n f * W h f) + B h

/-- The rectified similarity of nodes `n` and `m`. -/
def adj (X : ι → κ → EReal) (W1 : κ → κ → EReal) (B1 : κ → EReal) (W2 : κ → κ → EReal) (B2 : κ → EReal) (n m : ι) : EReal :=
  max (∑ h : κ, emb X W1 B1 n h * emb X W2 B2 m h) zeroWord

/-- Project every node by W3, then aggregate over the adjacency row, then add the bias. -/
def outK (X : ι → κ → EReal) (W1 : κ → κ → EReal) (B1 : κ → EReal) (W2 : κ → κ → EReal) (B2 : κ → EReal)
    (W3 : κ → κ → EReal) (B3 : κ → EReal) (n : ι) (o : κ) : EReal :=
  (∑ m : ι, adj X W1 B1 W2 B2 n m * (∑ f : κ, X m f * W3 o f)) + B3 o

/-- Aggregate the features over the adjacency row, then project by W3, then add the bias. -/
def outR (X : ι → κ → EReal) (W1 : κ → κ → EReal) (B1 : κ → EReal) (W2 : κ → κ → EReal) (B2 : κ → EReal)
    (W3 : κ → κ → EReal) (B3 : κ → EReal) (n : ι) (o : κ) : EReal :=
  (∑ f : κ, (∑ m : ι, adj X W1 B1 W2 B2 n m * X m f) * W3 o f) + B3 o

end Cert.Graph

end
-- ==== Proof.GraphPieces.lean ====
import proofs.«142887_j30863634989345_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

/-
  What one run of the body leaves, as values.

  The body has two cases.  At the first query tile of a graph (case A) it projects the whole graph's node features
  twice — once through the second dense layer, once through the output weights — and stores both projections in the
  two carried scratch arrays; at the other tiles (case B) it stores nothing there.  In both cases it then computes the
  output tile from the query rows (512 consecutive rows of the graph's features), the first dense layer, the last
  bias, and the two carried arrays as they stand after the stores.  Each of these is one covering store of one pure
  term of the loaded blocks.
-/
namespace Cert.Graph.Pieces

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The query rows: the 512 rows of the graph's feature block starting at row 512 · (tile number). -/
def qrows (i : grid0.Coords) (x0 : Vec F S1x2048x64 .f32) : Vec F S1x512x64 .f32 :=
  View.ld x0 (Rect.unit (s := S1x2048x64) (k0_off1 i) S1x512x64.size (k0_off1_inb i))

/-- Case A leaves in the first carried array the second dense layer of the whole graph. -/
theorem carryE2_A (c : Dev nD) (i : grid0.Coords) (arg2 : Memref sig .tc .vmem S1x2048x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S1x512x64 .f32) (harg9 : arg9.IsWhole) (arg10 : Memref sig .tc .vmem S2048x64 .bf16) (harg10 : arg10.IsWhole) (arg11 : Memref sig .tc .vmem S2048x64 .bf16) (harg11 : arg11.IsWhole) (hc0 : cond0_0 i) (x0 : Vec F S1x2048x64 .f32) (x1 : Vec F S64x64 .f32) (x2 : Vec F S64 .f32) (x3 : Vec F S64x64 .f32) (x4 : Vec F S64 .f32) (x5 : Vec F S64x64 .f32) (x6 : Vec F S64 .f32) :
    sout0_A_0 c i arg2 harg2 arg3 harg3 arg4 harg4 arg5 harg5 arg6 harg6 arg7 harg7 arg8 harg8 arg9 harg9 arg10 harg10 arg11 harg11 hc0 x0 x1 x2 x3 x4 x5 x6 = k0_pay3 x3 x4 x0 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg2.read_unread, harg5.read_unread, harg6.read_unread,
    View.ld_unit_zero (S := S64x64) hz2, View.ld_unit_zero (S := S1x2048x64) hz3, View.ld_unit_zero (S := S64) hz1]

/-- Case A leaves in the second carried array the whole graph projected by the output weights. -/
theorem carryXV_A (c : Dev nD) (i : grid0.Coords) (arg2 : Memref sig .tc .vmem S1x2048x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S1x512x64 .f32) (harg9 : arg9.IsWhole) (arg10 : Memref sig .tc .vmem S2048x64 .bf16) (harg10 : arg10.IsWhole) (arg11 : Memref sig .tc .vmem S2048x64 .bf16) (harg11 : arg11.IsWhole) (hc0 : cond0_0 i) (x0 : Vec F S1x2048x64 .f32) (x1 : Vec F S64x64 .f32) (x2 : Vec F S64 .f32) (x3 : Vec F S64x64 .f32) (x4 : Vec F S64 .f32) (x5 : Vec F S64x64 .f32) (x6 : Vec F S64 .f32) :
    sout0_A_1 c i arg2 harg2 arg3 harg3 arg4 harg4 arg5 harg5 arg6 harg6 arg7 harg7 arg8 harg8 arg9 harg9 arg10 harg10 arg11 harg11 hc0 x0 x1 x2 x3 x4 x5 x6 = k0_pay4 x5 x0 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg2.read_unread, harg7.read_unread,
    View.ld_unit_zero (S := S64x64) hz2, View.ld_unit_zero (S := S1x2048x64) hz3]

/-- Case A's output tile: computed from the query rows and the two arrays it has just stored. -/
theorem out_A (c : Dev nD) (i : grid0.Coords) (arg2 : Memref sig .tc .vmem S1x2048x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S1x512x64 .f32) (harg9 : arg9.IsWhole) (arg10 : Memref sig .tc .vmem S2048x64 .bf16) (harg10 : arg10.IsWhole) (arg11 : Memref sig .tc .vmem S2048x64 .bf16) (harg11 : arg11.IsWhole) (hc0 : cond0_0 i) (x0 : Vec F S1x2048x64 .f32) (x1 : Vec F S64x64 .f32) (x2 : Vec F S64 .f32) (x3 : Vec F S64x64 .f32) (x4 : Vec F S64 .f32) (x5 : Vec F S64x64 .f32) (x6 : Vec F S64 .f32) :
    out0_A_7 c i arg2 harg2 arg3 harg3 arg4 harg4 arg5 harg5 arg6 harg6 arg7 harg7 arg8 harg8 arg9 harg9 arg10 harg10 arg11 harg11 hc0 x0 x1 x2 x3 x4 x5 x6 = k0_pay1 (k0_pay5 x1 x2 x6 (qrows i x0) (k0_pay3 x3 x4 x0) (k0_pay4 x5 x0)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz3]
  rw [View.readCov_unit_zero (S := S2048x64) _ hz2, View.readCov_unit_zero (S := S2048x64) _ hz2]
  simp only [View.readAt_eq_ld, harg2.read_unread, harg3.read_unread, harg4.read_unread, harg5.read_unread, harg6.read_unread,
    harg7.read_unread, harg8.read_unread,
    View.ld_unit_zero (S := S64x64) hz2, View.ld_unit_zero (S := S1x2048x64) hz3, View.ld_unit_zero (S := S64) hz1]
  rfl

/-- Case B's output tile: computed from the query rows and the two carried arrays as the point before left them. -/
theorem out_B (c : Dev nD) (i : grid0.Coords) (arg2 : Memref sig .tc .vmem S1x2048x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S1x512x64 .f32) (harg9 : arg9.IsWhole) (arg10 : Memref sig .tc .vmem S2048x64 .bf16) (harg10 : arg10.IsWhole) (arg11 : Memref sig .tc .vmem S2048x64 .bf16) (harg11 : arg11.IsWhole) (hc0 : ¬cond0_0 i) (x0 : Vec F S1x2048x64 .f32) (x1 : Vec F S64x64 .f32) (x2 : Vec F S64 .f32) (x3 : Vec F S64x64 .f32) (x4 : Vec F S64 .f32) (x5 : Vec F S64x64 .f32) (x6 : Vec F S64 .f32) (xs0 xs1 : Vec F S2048x64 .bf16) :
    out0_B_7 c i arg2 harg2 arg3 harg3 arg4 harg4 arg5 harg5 arg6 harg6 arg7 harg7 arg8 harg8 arg9 harg9 arg10 harg10 arg11 harg11 hc0 x0 x1 x2 x3 x4 x5 x6 xs0 xs1 = k0_pay1 (k0_pay5 x1 x2 x6 (qrows i x0) xs0 xs1) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xs0 xs1)]
  unfold kernelRun0_B
  dsimp only
  sl_unfold_words
  rw [View.canon_unit_zero hz3]
  simp only [View.readAt_eq_ld, harg2.read_unread, harg3.read_unread, harg4.read_unread, harg8.read_unread, harg10.read_unread, harg11.read_unread,
    View.ld_unit_zero (S := S64x64) hz2, View.ld_unit_zero (S := S2048x64) hz2, View.ld_unit_zero (S := S64) hz1]
  rfl

end Cert.Graph.Pieces

end
-- ==== Proof.GraphBlocks.lean ====
/-
  Where each window's block sits in its array.

  The grid has 128 points, point t = 4·g + q for graph g = t / 4 and query tile q = t % 4.  Window 0 (the node
  features of one graph, a [1, 2048, 64] block of the [32, 2048, 64] array) has block index (g, 0, 0); windows 1–6
  (the three weight matrices and the three biases) are whole arrays, block index zero; the output window 7 (a
  [1, 512, 64] block of the [32, 2048, 64] result) has block index (g, q, 0).  An entry of a block is the entry of
  the array at block index × block size + the position inside the block, on every axis.
-/
import proofs.«142887_j30863634989345_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.Graph.Blocks

open Cert.KernelIdeal Cert.KernelIdeal.Gen

variable {F : FTy → Type} [FloatOps F]
variable (m : (ℓ : Loc nD τ sig) → Buf (Elt F) ℓ)

/-- The printed index maps, decided once over the grid. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) = t.val / 4 ∧ win0_7.index t (1 : Fin 3) = t.val % 4 ∧ win0_7.index t (2 : Fin 3) = 0 :=
  (by decide +kernel : ∀ t : Fin grid0.N, _)

theorem lt128 (t : Fin cfg0.N) : t.val < 128 := lt_of_lt_of_eq t.isLt (show cfg0.N = 128 from N_0)

/-- The graph of point `t`. -/
def graphOf (t : Fin cfg0.N) : Fin 32 := ⟨t.val / 4, by have := lt128 t; omega⟩

/-- Row `r` of query tile `t % 4`, as a node of the graph. -/
def nodeOf (t : Fin cfg0.N) (r : Fin 512) : Fin 2048 := ⟨(t.val % 4) * 512 + r.val, by have := r.isLt; omega⟩

/-- Window 0's block at point `t` is graph `t / 4`'s slab of the node features. -/
theorem iblk0_apply (c : Dev nD) (t : Fin cfg0.N) (a : Fin 2048) (f : Fin 64) :
    (iblk m c 0 t : Vec F S1x2048x64 .f32) (ix3 (0 : Fin 1) a f) = V m c main_v0 (ix3 (graphOf t) a f) := by
  obtain ⟨e0, e1, e2, -⟩ := idx_facts t
  unfold iblk
  rw [View.read_apply]
  show V m c main_v0 _ = V m c main_v0 _
  congr 1
  funext d
  apply Fin.ext
  match d with
  | ⟨0, _⟩ => show win0_0.index t (0 : Fin 3) * 1 + 1 * 0 = t.val / 4; omega
  | ⟨1, _⟩ => show win0_0.index t (1 : Fin 3) * 2048 + 1 * a.val = a.val; omega
  | ⟨2, _⟩ => show win0_0.index t (2 : Fin 3) * 64 + 1 * f.val = f.val; omega

/-- Window 1's block is the whole array. -/
theorem iblk1_apply (c : Dev nD) (t : Fin cfg0.N) (h f : Fin 64) :
    (iblk m c 1 t : Vec F S64x64 .f32) (ix2 h f) = V m c main_arg1 (ix2 h f) := by
  have e := idx_facts t
  unfold iblk
  rw [View.read_apply]
  show V m c main_arg1 _ = V m c main_arg1 _
  congr 1
  funext d
  apply Fin.ext
  match d with
  | ⟨0, _⟩ => show win0_1.index t (0 : Fin 2) * 64 + 1 * h.val = h.val; omega
  | ⟨1, _⟩ => show win0_1.index t (1 : Fin 2) * 64 + 1 * f.val = f.val; omega

/-- Window 2's block is the whole array. -/
theorem iblk2_apply (c : Dev nD) (t : Fin cfg0.N) (h : Fin 64) :
    (iblk m c 2 t : Vec F S64 .f32) (ix1 h) = V m c main_arg2 (ix1 h) := by
  have e := idx_facts t
  unfold iblk
  rw [View.read_apply]
  show V m c main_arg2 _ = V m c main_arg2 _
  congr 1
  funext d
  apply Fin.ext
  match d with
  | ⟨0, _⟩ => show win0_2.index t (0 : Fin 1) * 64 + 1 * h.val = h.val; omega

/-- Window 3's block is the whole array. -/
theorem iblk3_apply (c : Dev nD) (t : Fin cfg0.N) (h f : Fin 64) :
    (iblk m c 3 t : Vec F S64x64 .f32) (ix2 h f) = V m c main_arg3 (ix2 h f) := by
  have e := idx_facts t
  unfold iblk
  rw [View.read_apply]
  show V m c main_arg3 _ = V m c main_arg3 _
  congr 1
  funext d
  apply Fin.ext
  match d with
  | ⟨0, _⟩ => show win0_3.index t (0 : Fin 2) * 64 + 1 * h.val = h.val; omega
  | ⟨1, _⟩ => show win0_3.index t (1 : Fin 2) * 64 + 1 * f.val = f.val; omega

/-- Window 4's block is the whole array. -/
theorem iblk4_apply (c : Dev nD) (t : Fin cfg0.N) (h : Fin 64) :
    (iblk m c 4 t : Vec F S64 .f32) (ix1 h) = V m c main_arg4 (ix1 h) := by
  have e := idx_facts t
  unfold iblk
  rw [View.read_apply]
  show V m c main_arg4 _ = V m c main_arg4 _
  congr 1
  funext d
  apply Fin.ext
  match d with
  | ⟨0, _⟩ => show win0_4.index t (0 : Fin 1) * 64 + 1 * h.val = h.val; omega

/-- Window 5's block is the whole array. -/
theorem iblk5_apply (c : Dev nD) (t : Fin cfg0.N) (h f : Fin 64) :
    (iblk m c 5 t : Vec F S64x64 .f32) (ix2 h f) = V m c main_arg5 (ix2 h f) := by
  have e := idx_facts t
  unfold iblk
  rw [View.read_apply]
  show V m c main_arg5 _ = V m c main_arg5 _
  congr 1
  funext d
  apply Fin.ext
  match d with
  | ⟨0, _⟩ => show win0_5.index t (0 : Fin 2) * 64 + 1 * h.val = h.val; omega
  | ⟨1, _⟩ => show win0_5.index t (1 : Fin 2) * 64 + 1 * f.val = f.val; omega

/-- Window 6's block is the whole array. -/
theorem iblk6_apply (c : Dev nD) (t : Fin cfg0.N) (h : Fin 64) :
    (iblk m c 6 t : Vec F S64 .f32) (ix1 h) = V m c main_arg6 (ix1 h) := by
  have e := idx_facts t
  unfold iblk
  rw [View.read_apply]
  show V m c main_arg6 _ = V m c main_arg6 _
  congr 1
  funext d
  apply Fin.ext
  match d with
  | ⟨0, _⟩ => show win0_6.index t (0 : Fin 1) * 64 + 1 * h.val = h.val; omega

end Cert.Graph.Blocks

end
-- ==== Proof.GraphPayload.lean ====
/-
  The kernel body's arithmetic, entry by entry on the extended reals.

  The kernel's body computes five pure values from the blocks it loads.  Read at the ideal instance (every float an
  extended real, every operation exact, a change of float format the identity) and at an index written by its
  coordinates, each is a plain expression in the loaded blocks:

    * the stored block of an output, a [512, 64] array seen as [1, 512, 64]:  entry (0, r, o) is entry (r, o);
    * a graph's node features X, loaded as [1, 2048, 64], seen as a matrix:  entry (a, f) is X(0,a,f);
    * the key embeddings  e2 = X W2ᵀ + B2  of a graph's 2048 nodes:  entry (a, h) is (Σ_f X(0,a,f) · W2(h,f)) + B2(h);
    * the projected features  X W3ᵀ :  entry (a, o) is Σ_f X(0,a,f) · W3(o,f);
    * one block of 512 output rows:  entry (r, o) is
        (Σ_m max (Σ_h ((Σ_f Xq(0,r,f) · W1(h,f)) + B1(h)) · e2(m,h), 0) · xv(m,o)) + B3(o),
      the query embedding against every key embedding, rectified, then used as weights over the projected rows.

  A matrix product that accumulates into the zero array is, at an index, the sum over its one contracted axis of the
  operands' products; the lemmas `mm*_apply` say so for the four products of the body with both operand indices written
  by coordinates.  A reshape that drops or adds a leading unit axis, a bias row broadcast over all rows, and the
  elementwise operations are read at an index by the library's lemmas.
-/
import proofs.«142887_j30863634989345_2_alg».proof.Proof.GraphSpec
import proofs.«142887_j30863634989345_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Graph.Payload

open Cert.KernelIdeal Cert.KernelIdeal.Gen Idealize.ShloMosaic Idealize.ShloMosaic.ValueIdx

/-! ## The four matrix products of the body, read at an index -/

/-- The left operand's row coordinate does not depend on the contraction position. -/
theorem mmBlock_lhs_free (j : S2048x64.Idx) (q : dot_S2048x64_S64x64_S2048x64_1_1_0_0_n_n.contr.Idx) :
    (dot_S2048x64_S64x64_S2048x64_1_1_0_0_n_n.lhsIdx j q 0).val = (j 0).val := by
  unfold DotDims.lhsIdx
  rw [dif_neg (show ¬(0 : Fin S2048x64.rank) ∈ dot_S2048x64_S64x64_S2048x64_1_1_0_0_n_n.lhsBatch by decide), dif_pos (show (0 : Fin S2048x64.rank) ∈ dot_S2048x64_S64x64_S2048x64_1_1_0_0_n_n.lhsNonContracting by decide)]
  rfl

/-- The right operand's free coordinate is the result's column. -/
theorem mmBlock_rhs_free (j : S2048x64.Idx) (q : dot_S2048x64_S64x64_S2048x64_1_1_0_0_n_n.contr.Idx) :
    (dot_S2048x64_S64x64_S2048x64_1_1_0_0_n_n.rhsIdx j q 0).val = (j 1).val := by
  unfold DotDims.rhsIdx
  rw [dif_neg (show ¬(0 : Fin S64x64.rank) ∈ dot_S2048x64_S64x64_S2048x64_1_1_0_0_n_n.rhsBatch by decide), dif_pos (show (0 : Fin S64x64.rank) ∈ dot_S2048x64_S64x64_S2048x64_1_1_0_0_n_n.rhsNonContracting by decide)]
  rfl

/-- A 2048-row block times a 64×64 weight's transpose, accumulated into the zero splat: entry (a, b) is the sum over the shared feature axis. -/
theorem mmBlock_apply (l : FVec Ideal S2048x64 .bf16) (r : FVec Ideal S64x64 .bf16) (a : Fin 2048) (b : Fin 64) :
    matmul dot_S2048x64_S64x64_S2048x64_1_1_0_0_n_n none l r (constant S2048x64 .f32 0x00000000#32) (ix2 a b)
      = ∑ k : Fin 64, l (ix2 a k) * r (ix2 b k) := by
  simp only [matmul]
  rw [Ideal.matmul_constant_zero_apply, ← Equiv.sum_comp (contrEquiv1 dot_S2048x64_S64x64_S2048x64_1_1_0_0_n_n 64 rfl rfl).symm]
  refine Finset.sum_congr rfl fun k _ => ?_
  have hk := contrEquiv1_symm_val dot_S2048x64_S64x64_S2048x64_1_1_0_0_n_n 64 rfl rfl k
  have el : dot_S2048x64_S64x64_S2048x64_1_1_0_0_n_n.lhsIdx (ix2 a b) ((contrEquiv1 dot_S2048x64_S64x64_S2048x64_1_1_0_0_n_n 64 rfl rfl).symm k) = ix2 a k :=
    funext fun c => Fin.ext (by
      match c with
      | ⟨0, _⟩ => exact mmBlock_lhs_free _ _
      | ⟨1, _⟩ => exact (dot_S2048x64_S64x64_S2048x64_1_1_0_0_n_n.lhsIdx_val_of_single rfl _ _).trans hk)
  have er : dot_S2048x64_S64x64_S2048x64_1_1_0_0_n_n.rhsIdx (ix2 a b) ((contrEquiv1 dot_S2048x64_S64x64_S2048x64_1_1_0_0_n_n 64 rfl rfl).symm k) = ix2 b k :=
    funext fun c => Fin.ext (by
      match c with
      | ⟨0, _⟩ => exact mmBlock_rhs_free _ _
      | ⟨1, _⟩ => exact (dot_S2048x64_S64x64_S2048x64_1_1_0_0_n_n.rhsIdx_val_of_single rfl _ _).trans hk)
  rw [el, er]

/-- The left operand's row coordinate does not depend on the contraction position. -/
theorem mmQuery_lhs_free (j : S512x64.Idx) (q : dot_S512x64_S64x64_S512x64_1_1_0_0_n_n.contr.Idx) :
    (dot_S512x64_S64x64_S512x64_1_1_0_0_n_n.lhsIdx j q 0).val = (j 0).val := by
  unfold DotDims.lhsIdx
  rw [dif_neg (show ¬(0 : Fin S512x64.rank) ∈ dot_S512x64_S64x64_S512x64_1_1_0_0_n_n.lhsBatch by decide), dif_pos (show (0 : Fin S512x64.rank) ∈ dot_S512x64_S64x64_S512x64_1_1_0_0_n_n.lhsNonContracting by decide)]
  rfl

/-- The right operand's free coordinate is the result's column. -/
theorem mmQuery_rhs_free (j : S512x64.Idx) (q : dot_S512x64_S64x64_S512x64_1_1_0_0_n_n.contr.Idx) :
    (dot_S512x64_S64x64_S512x64_1_1_0_0_n_n.rhsIdx j q 0).val = (j 1).val := by
  unfold DotDims.rhsIdx
  rw [dif_neg (show ¬(0 : Fin S64x64.rank) ∈ dot_S512x64_S64x64_S512x64_1_1_0_0_n_n.rhsBatch by decide), dif_pos (show (0 : Fin S64x64.rank) ∈ dot_S512x64_S64x64_S512x64_1_1_0_0_n_n.rhsNonContracting by decide)]
  rfl

/-- A 512-row block of query rows times a 64×64 weight's transpose, accumulated into the zero splat: entry (a, b) is the sum over the shared feature axis. -/
theorem mmQuery_apply (l : FVec Ideal S512x64 .bf16) (r : FVec Ideal S64x64 .bf16) (a : Fin 512) (b : Fin 64) :
    matmul dot_S512x64_S64x64_S512x64_1_1_0_0_n_n none l r (constant S512x64 .f32 0x00000000#32) (ix2 a b)
      = ∑ k : Fin 64, l (ix2 a k) * r (ix2 b k) := by
  simp only [matmul]
  rw [Ideal.matmul_constant_zero_apply, ← Equiv.sum_comp (contrEquiv1 dot_S512x64_S64x64_S512x64_1_1_0_0_n_n 64 rfl rfl).symm]
  refine Finset.sum_congr rfl fun k _ => ?_
  have hk := contrEquiv1_symm_val dot_S512x64_S64x64_S512x64_1_1_0_0_n_n 64 rfl rfl k
  have el : dot_S512x64_S64x64_S512x64_1_1_0_0_n_n.lhsIdx (ix2 a b) ((contrEquiv1 dot_S512x64_S64x64_S512x64_1_1_0_0_n_n 64 rfl rfl).symm k) = ix2 a k :=
    funext fun c => Fin.ext (by
      match c with
      | ⟨0, _⟩ => exact mmQuery_lhs_free _ _
      | ⟨1, _⟩ => exact (dot_S512x64_S64x64_S512x64_1_1_0_0_n_n.lhsIdx_val_of_single rfl _ _).trans hk)
  have er : dot_S512x64_S64x64_S512x64_1_1_0_0_n_n.rhsIdx (ix2 a b) ((contrEquiv1 dot_S512x64_S64x64_S512x64_1_1_0_0_n_n 64 rfl rfl).symm k) = ix2 b k :=
    funext fun c => Fin.ext (by
      match c with
      | ⟨0, _⟩ => exact mmQuery_rhs_free _ _
      | ⟨1, _⟩ => exact (dot_S512x64_S64x64_S512x64_1_1_0_0_n_n.rhsIdx_val_of_single rfl _ _).trans hk)
  rw [el, er]

/-- The left operand's row coordinate does not depend on the contraction position. -/
theorem mmSim_lhs_free (j : S512x2048.Idx) (q : dot_S512x64_S2048x64_S512x2048_1_1_0_0_n_n.contr.Idx) :
    (dot_S512x64_S2048x64_S512x2048_1_1_0_0_n_n.lhsIdx j q 0).val = (j 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl

/-- The right operand's free coordinate is the result's column. -/
theorem mmSim_rhs_free (j : S512x2048.Idx) (q : dot_S512x64_S2048x64_S512x2048_1_1_0_0_n_n.contr.Idx) :
    (dot_S512x64_S2048x64_S512x2048_1_1_0_0_n_n.rhsIdx j q 0).val = (j 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl

/-- The similarity of 512 query embeddings with 2048 key embeddings, accumulated into the zero splat: entry (a, b) is the sum over the shared embedding axis of row a of the left operand times row b of the right. -/
theorem mmSim_apply (l : FVec Ideal S512x64 .bf16) (r : FVec Ideal S2048x64 .bf16) (a : Fin 512) (b : Fin 2048) :
    matmul dot_S512x64_S2048x64_S512x2048_1_1_0_0_n_n none l r (constant S512x2048 .f32 0x00000000#32) (ix2 a b)
      = ∑ k : Fin 64, l (ix2 a k) * r (ix2 b k) := by
  simp only [matmul]
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 a b) ((contrEquiv1 dot_S512x64_S2048x64_S512x2048_1_1_0_0_n_n 64 rfl rfl).symm k) = ix2 a k :=
    funext fun c => Fin.ext (by
      match c with
      | ⟨0, _⟩ => exact mmSim_lhs_free _ _
      | ⟨1, _⟩ => exact (dot_S512x64_S2048x64_S512x2048_1_1_0_0_n_n.lhsIdx_val_of_single rfl _ _).trans hk)
  have er : dot_S512x64_S2048x64_S512x2048_1_1_0_0_n_n.rhsIdx (ix2 a b) ((contrEquiv1 dot_S512x64_S2048x64_S512x2048_1_1_0_0_n_n 64 rfl rfl).symm k) = ix2 b k :=
    funext fun c => Fin.ext (by
      match c with
      | ⟨0, _⟩ => exact mmSim_rhs_free _ _
      | ⟨1, _⟩ => exact (dot_S512x64_S2048x64_S512x2048_1_1_0_0_n_n.rhsIdx_val_of_single rfl _ _).trans hk)
  rw [el, er]

/-- The left operand's row coordinate does not depend on the contraction position. -/
theorem mmAgg_lhs_free (j : S512x64.Idx) (q : dot_S512x2048_S2048x64_S512x64_1_0_0_1_n_n.contr.Idx) :
    (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl

/-- The right operand's free coordinate is the result's column. -/
theorem mmAgg_rhs_free (j : S512x64.Idx) (q : dot_S512x2048_S2048x64_S512x64_1_0_0_1_n_n.contr.Idx) :
    (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The aggregation of 2048 projected rows under a 512×2048 adjacency block, accumulated into the zero splat: entry (a, b) is the sum over the nodes k of the adjacency at (a, k) times the projected row k at column b. -/
theorem mmAgg_apply (l : FVec Ideal S512x2048 .bf16) (r : FVec Ideal S2048x64 .bf16) (a : Fin 512) (b : Fin 64) :
    matmul dot_S512x2048_S2048x64_S512x64_1_0_0_1_n_n none l r (constant S512x64 .f32 0x00000000#32) (ix2 a b)
      = ∑ k : Fin 2048, l (ix2 a k) * r (ix2 k b) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 a b) ((contrEquiv1 dot_S512x2048_S2048x64_S512x64_1_0_0_1_n_n 2048 rfl rfl).symm k) = ix2 a k :=
    funext fun c => Fin.ext (by
      match c with
      | ⟨0, _⟩ => exact mmAgg_lhs_free _ _
      | ⟨1, _⟩ => exact (dot_S512x2048_S2048x64_S512x64_1_0_0_1_n_n.lhsIdx_val_of_single rfl _ _).trans hk)
  have er : dot_S512x2048_S2048x64_S512x64_1_0_0_1_n_n.rhsIdx (ix2 a b) ((contrEquiv1 dot_S512x2048_S2048x64_S512x64_1_0_0_1_n_n 2048 rfl rfl).symm k) = ix2 k b :=
    funext fun c => Fin.ext (by
      match c with
      | ⟨0, _⟩ => exact (dot_S512x2048_S2048x64_S512x64_1_0_0_1_n_n.rhsIdx_val_of_single rfl _ _).trans hk
      | ⟨1, _⟩ => exact mmAgg_rhs_free _ _)
  rw [el, er]

/-! ## The bias path: a vector seen as one row, the row broadcast over all rows -/

/-- A 64-vector reshaped to one row and broadcast over 2048 rows reads, at (a, h), the vector at h. -/
theorem bias2048_apply (b : Vec Ideal S64 .f32) (a : Fin 2048) (h : Fin 64) :
    broadcastTo S2048x64 (shapeCast S1x64 b shapeCasts_S64_S1x64) broadcasts_S1x64_S2048x64 (ix2 a h) = b (ix1 h) :=
  (broadcastTo_1b_ab_apply _ _ a h).trans (shapeCast_a_1a_apply b _ 0 h)

/-- A 64-vector reshaped to one row and broadcast over 512 rows reads, at (r, h), the vector at h. -/
theorem bias512_apply (b : Vec Ideal S64 .f32) (r : Fin 512) (h : Fin 64) :
    broadcastTo S512x64 (shapeCast S1x64 b shapeCasts_S64_S1x64) broadcasts_S1x64_S512x64 (ix2 r h) = b (ix1 h) :=
  (broadcastTo_1b_ab_apply _ _ r h).trans (shapeCast_a_1a_apply b _ 0 h)

/-! ## The payloads -/

/-- The stored output block: a [512, 64] array seen as [1, 512, 64]. -/
theorem pay1_apply (v : FVec Ideal S512x64 .f32) (r : Fin 512) (o : Fin 64) :
    k0_pay1 (F := Ideal) v (ix3 (0 : Fin 1) r o) = v (ix2 r o) := by
  unfold k0_pay1
  exact shapeCast_ab_1ab_apply v _ 0 r o

/-- The graph's node features as a [2048, 64] matrix: the leading unit axis dropped. -/
theorem pay2_apply (x : Vec Ideal S1x2048x64 .f32) (a : Fin 2048) (f : Fin 64) :
    k0_pay2 (F := Ideal) x (ix2 a f) = x (ix3 (0 : Fin 1) a f) := by
  unfold k0_pay2
  exact (truncf_apply (ψ := .bf16) _ bitsLt_bf16_f32 _).trans (shapeCast_1ab_ab_apply x _ a f)

/-- The key embeddings: a dense layer of every node. -/
theorem pay3_apply (w : Vec Ideal S64x64 .f32) (b : Vec Ideal S64 .f32) (x : Vec Ideal S1x2048x64 .f32) (a : Fin 2048) (h : Fin 64) :
    k0_pay3 (F := Ideal) w b x (ix2 a h) = (∑ f : Fin 64, x (ix3 (0 : Fin 1) a f) * w (ix2 h f)) + b (ix1 h) := by
  unfold k0_pay3
  refine (congrFun (shapeCast_self _ _) _).trans ?_
  refine (truncf_apply (ψ := .bf16) _ bitsLt_bf16_f32 _).trans ?_
  refine (addf_apply _ _ _).trans ?_
  refine congrArg₂ (· + ·) ?_ (bias2048_apply b a h)
  refine (mmBlock_apply _ _ a h).trans ?_
  refine Finset.sum_congr rfl fun f _ => ?_
  exact congrArg₂ (· * ·) (pay2_apply x a f) (truncf_apply (ψ := .bf16) _ bitsLt_bf16_f32 _)

/-- The projected features of every node (no bias: it is added after the aggregation). -/
theorem pay4_apply (w : Vec Ideal S64x64 .f32) (x : Vec Ideal S1x2048x64 .f32) (a : Fin 2048) (o : Fin 64) :
    k0_pay4 (F := Ideal) w x (ix2 a o) = ∑ f : Fin 64, x (ix3 (0 : Fin 1) a f) * w (ix2 o f) := by
  unfold k0_pay4
  refine (congrFun (shapeCast_self _ _) _).trans ?_
  refine (truncf_apply (ψ := .bf16) _ bitsLt_bf16_f32 _).trans ?_
  refine (mmBlock_apply _ _ a o).trans ?_
  refine Finset.sum_congr rfl fun f _ => ?_
  exact congrArg₂ (· * ·) (pay2_apply x a f) (truncf_apply (ψ := .bf16) _ bitsLt_bf16_f32 _)

/-- One block of 512 output rows: the query embedding against every key embedding, rectified, then the weighted sum of
    the projected rows, plus the output bias. -/
theorem pay5_apply (w1 : Vec Ideal S64x64 .f32) (b1 b3 : Vec Ideal S64 .f32) (xq : Vec Ideal S1x512x64 .f32) (e2 xv : Vec Ideal S2048x64 .bf16) (r : Fin 512) (o : Fin 64) :
    k0_pay5 (F := Ideal) w1 b1 b3 xq e2 xv (ix2 r o)
      = (∑ m : Fin 2048, max (∑ h : Fin 64, ((∑ f : Fin 64, xq (ix3 (0 : Fin 1) r f) * w1 (ix2 h f)) + b1 (ix1 h)) * e2 (ix2 m h)) Cert.Graph.zeroWord * xv (ix2 m o)) + b3 (ix1 o) := by
  unfold k0_pay5
  refine (addf_apply _ _ _).trans ?_
  refine congrArg₂ (· + ·) ?_ (bias512_apply b3 r o)
  refine (mmAgg_apply _ _ r o).trans ?_
  refine Finset.sum_congr rfl fun m _ => ?_
  refine congrArg₂ (· * ·) ?_ rfl
  refine (truncf_apply (ψ := .bf16) _ bitsLt_bf16_f32 _).trans ?_
  refine (maximumf_apply _ _ _).trans ?_
  refine congrArg₂ max ?_ rfl
  refine (mmSim_apply _ _ r m).trans ?_
  refine Finset.sum_congr rfl fun h _ => ?_
  refine congrArg₂ (· * ·) ?_ rfl
  refine (truncf_apply (ψ := .bf16) _ bitsLt_bf16_f32 _).trans ?_
  refine (addf_apply _ _ _).trans ?_
  refine congrArg₂ (· + ·) ?_ (bias512_apply b1 r h)
  refine (mmQuery_apply _ _ r h).trans ?_
  refine Finset.sum_congr rfl fun f _ => ?_
  refine congrArg₂ (· * ·) ?_ (truncf_apply (ψ := .bf16) _ bitsLt_bf16_f32 _)
  exact (truncf_apply (ψ := .bf16) _ bitsLt_bf16_f32 _).trans (shapeCast_1ab_ab_apply xq _ r f)

end Cert.Graph.Payload

end
-- ==== Proof.GraphCarry.lean ====
/-
  What the carried arrays and the output tile hold after every grid point.

  Point t = 4·g + q works on graph g and query tile q.  After EVERY point of graph g the two carried arrays hold the
  second dense layer of the whole graph, emb X W2 B2 (rows a, features h), and the whole graph projected by the output
  weights, Σ_f X a f · W3 o f: the first point of the graph (q = 0) stores them, the other three leave them as they
  are, and the graph's features are the same block at all four points.  The output tile of point t is computed from
  the carried arrays as they stand after the point's stores, so row r of the tile is entry (512·q + r, o) of
  "project, then aggregate over the rectified similarities" for graph g.
-/
import proofs.«142887_j30863634989345_2_alg».proof.Proof.GraphSpec
import proofs.«142887_j30863634989345_2_alg».proof.Proof.GraphPieces
import proofs.«142887_j30863634989345_2_alg».proof.Proof.GraphBlocks
import proofs.«142887_j30863634989345_2_alg».proof.Proof.GraphPayload

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Graph.Carry

open Cert.KernelIdeal Cert.KernelIdeal.Gen Cert.Graph.Blocks Cert.Graph.Pieces Cert.Graph.Payload

variable (m : (ℓ : Loc nD τ sig) → Buf (Elt Ideal) ℓ)

/-- Graph `g`'s node features, as the region finds the reshaped input. -/
def feat (c : Dev nD) (g : Fin 32) : Fin 2048 → Fin 64 → EReal := fun a f => V m c main_v0 (ix3 g a f)
/-- The three weight matrices and biases, as the region finds them. -/
def wt1 (c : Dev nD) : Fin 64 → Fin 64 → EReal := fun h f => V m c main_arg1 (ix2 h f)
def bs1 (c : Dev nD) : Fin 64 → EReal := fun h => V m c main_arg2 (ix1 h)
def wt2 (c : Dev nD) : Fin 64 → Fin 64 → EReal := fun h f => V m c main_arg3 (ix2 h f)
def bs2 (c : Dev nD) : Fin 64 → EReal := fun h => V m c main_arg4 (ix1 h)
def wt3 (c : Dev nD) : Fin 64 → Fin 64 → EReal := fun h f => V m c main_arg5 (ix2 h f)
def bs3 (c : Dev nD) : Fin 64 → EReal := fun h => V m c main_arg6 (ix1 h)

/-- The query tile's first row, decided once over the grid: 512 · (t % 4). -/
theorem off_facts : ∀ t : Fin cfg0.N, k0_off1 (grid0.coords t) (0 : Fin 3) = 0
    ∧ k0_off1 (grid0.coords t) (1 : Fin 3) = (t.val % 4) * 512 ∧ k0_off1 (grid0.coords t) (2 : Fin 3) = 0 :=
  (by decide +kernel : ∀ t : Fin grid0.N, _)

/-- Row `r` of the query rows at point `t` is row 512·(t % 4) + r of the graph's block. -/
theorem qrows_apply (t : Fin cfg0.N) (x0 : Vec Ideal S1x2048x64 .f32) (r : Fin 512) (f : Fin 64) :
    qrows (grid0.coords t) x0 (ix3 (0 : Fin 1) r f) = x0 (ix3 (0 : Fin 1) (nodeOf t r) f) := by
  obtain ⟨e0, e1, e2⟩ := off_facts t
  unfold qrows
  show x0 _ = x0 _
  congr 1
  funext d
  apply Fin.ext
  match d with
  | ⟨0, _⟩ => show k0_off1 (grid0.coords t) (0 : Fin 3) + 1 * 0 = 0; omega
  | ⟨1, _⟩ => show k0_off1 (grid0.coords t) (1 : Fin 3) + 1 * r.val = (t.val % 4) * 512 + r.val; omega
  | ⟨2, _⟩ => show k0_off1 (grid0.coords t) (2 : Fin 3) + 1 * f.val = f.val; omega

/-- What the two carried arrays are meant to hold for the graph of point `t`. -/
def Carried (c : Dev nD) (t : Fin cfg0.N) (S0 S1 : Vec Ideal S2048x64 .bf16) : Prop :=
  (∀ (a : Fin 2048) (k : Fin 64), S0 (ix2 a k) = emb (feat m c (graphOf t)) (wt2 m c) (bs2 m c) a k)
  ∧ (∀ (a : Fin 2048) (o : Fin 64), S1 (ix2 a o) = ∑ f : Fin 64, feat m c (graphOf t) a f * wt3 m c o f)

/-- The first point of a graph stores them. -/
theorem carried_A (c : Dev nD) (t : Fin cfg0.N) (h0 : t.val % 4 = 0) :
    Carried m c t (outsAt0 m c t.val t.isLt).2.1 (outsAt0 m c t.val t.isLt).2.2 := by
  rw [outsAt0_A m c t h0]
  dsimp only
  have e0 := carryE2_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)
  have e1 := carryXV_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)
  refine ⟨fun a k => ?_, fun a o => ?_⟩
  · refine (congrFun e0 (ix2 a k)).trans ?_
    refine (pay3_apply _ _ _ a k).trans ?_
    unfold emb feat wt2 bs2
    simp only [iblk0_apply, iblk3_apply, iblk4_apply]
  · refine (congrFun e1 (ix2 a o)).trans ?_
    refine (pay4_apply _ _ a o).trans ?_
    unfold feat wt3
    simp only [iblk0_apply, iblk5_apply]

/-- The other points leave them as the point before left them. -/
theorem carried_B (c : Dev nD) (t : Fin cfg0.N) (h0 : ¬t.val % 4 = 0) :
    (outsAt0 m c t.val t.isLt).2.1 = (outsAt0 m c (t.val - 1) (Nat.lt_of_le_of_lt (Nat.sub_le _ _) t.isLt)).2.1 ∧ (outsAt0 m c t.val t.isLt).2.2 = (outsAt0 m c (t.val - 1) (Nat.lt_of_le_of_lt (Nat.sub_le _ _) t.isLt)).2.2 := by
  rw [outsAt0_B m c t h0]
  exact ⟨rfl, rfl⟩

/-- After every point the carried arrays hold the graph's two projections. -/
theorem carried (c : Dev nD) : ∀ (n : ℕ) (h : n < cfg0.N),
    Carried m c ⟨n, h⟩ (outsAt0 m c n h).2.1 (outsAt0 m c n h).2.2
  | 0, h => carried_A m c ⟨0, h⟩ rfl
  | n + 1, h => by
    by_cases h0 : (n + 1) % 4 = 0
    · exact carried_A m c ⟨n + 1, h⟩ h0
    · obtain ⟨eS0, eS1⟩ := carried_B m c ⟨n + 1, h⟩ h0
      have ih := carried c n (Nat.lt_of_succ_lt h)
      have hg : graphOf (⟨n + 1, h⟩ : Fin cfg0.N) = graphOf ⟨n, Nat.lt_of_succ_lt h⟩ := by
        apply Fin.ext; show (n + 1) / 4 = n / 4; omega
      show Carried m c ⟨n + 1, h⟩ (outsAt0 m c (n + 1) h).2.1 (outsAt0 m c (n + 1) h).2.2
      have eS0' : (outsAt0 m c (n + 1) h).2.1 = (outsAt0 m c n (Nat.lt_of_succ_lt h)).2.1 := eS0
      have eS1' : (outsAt0 m c (n + 1) h).2.2 = (outsAt0 m c n (Nat.lt_of_succ_lt h)).2.2 := eS1
      rw [eS0', eS1']
      unfold Carried
      rw [hg]
      exact ih

/-- The output tile of every point is computed from the carried arrays as they stand after the point. -/
theorem tile_uses_carry (c : Dev nD) (t : Fin cfg0.N) :
    (outsAt0 m c t.val t.isLt).1
      = k0_pay1 (k0_pay5 (iblk m c 1 t) (iblk m c 2 t) (iblk m c 6 t) (qrows (grid0.coords t) (iblk m c 0 t))
          (outsAt0 m c t.val t.isLt).2.1 (outsAt0 m c t.val t.isLt).2.2) := by
  by_cases h0 : t.val % 4 = 0
  · rw [outsAt0_A m c t h0]
    dsimp only
    rw [out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t),
      carryE2_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t),
      carryXV_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)]
  · rw [outsAt0_B m c t h0]
    dsimp only
    exact out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2

/-- Row `r` of point `t`'s output tile is the "project, then aggregate" entry of node 512·(t % 4) + r of graph t / 4. -/
theorem tile_apply (c : Dev nD) (t : Fin cfg0.N) (r : Fin 512) (o : Fin 64) :
    (outsAt0 m c t.val t.isLt).1 (ix3 (0 : Fin 1) r o)
      = outK (feat m c (graphOf t)) (wt1 m c) (bs1 m c) (wt2 m c) (bs2 m c) (wt3 m c) (bs3 m c) (nodeOf t r) o := by
  obtain ⟨hE, hX⟩ := carried m c t.val t.isLt
  rw [tile_uses_carry m c t]
  refine (pay1_apply _ r o).trans ?_
  refine (pay5_apply _ _ _ _ _ _ r o).trans ?_
  unfold outK adj emb
  simp only [hE, hX, qrows_apply, iblk0_apply, iblk1_apply, iblk2_apply, iblk6_apply]
  unfold emb feat wt1 bs1 wt3 bs3
  rfl

end Cert.Graph.Carry

end
-- ==== Proof.GraphFinal.lean ====
/-
  The whole result array of the kernel region.

  Point t = 4·g + q writes back the [1, 512, 64] tile at block (g, q, 0) of the [32, 2048, 64] result; entry (0, r, o)
  of the tile is entry (g, 512·q + r, o) of the array.  By the tile's value, every entry written is the "project, then
  aggregate" entry of its own graph, node and output feature, so the blocks are restrictions of ONE function of the
  whole arrays.  Every index (g, n, o) lies in the block of the point 4·g + n / 512, so the blocks cover the array.
-/
import proofs.«142887_j30863634989345_2_alg».proof.Proof.GraphCarry

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Graph.Final

open Cert.KernelIdeal Cert.KernelIdeal.Gen Cert.Graph.Blocks Cert.Graph.Carry

variable (m : (ℓ : Loc nD τ sig) → Buf (Elt Ideal) ℓ)

/-- The region's result as one function of the arrays the region finds: entry (g, n, o) is the "project, then
    aggregate" entry of node n, output feature o, of graph g. -/
def G3 (c : Dev nD) : S32x2048x64.Idx → EReal := fun j =>
  outK (feat m c (j 0)) (wt1 m c) (bs1 m c) (wt2 m c) (bs2 m c) (wt3 m c) (bs3 m c) (j 1) (j 2)

/-- What point `t` writes back is block `t` of that function. -/
theorem flushed_eq (c : Dev nD) (t : Fin cfg0.N) :
    (dats m 0 c).flushed 7 t = ((cfg0.win 7).blk t).view.read (Elt Ideal) (G3 m c) := by
  show (cfg0.win 7).cut (grid0.coords t) ((dats m 0 c).after 7 t) = _
  rw [after0_7]
  refine funext fun (y : S1x512x64.Idx) => ?_
  obtain ⟨r, o, rfl⟩ : ∃ (r : Fin 512) (o : Fin 64), y = ix3 (0 : Fin 1) r o :=
    ⟨y 1, y 2, funext fun d => by
      match d with
      | ⟨0, _⟩ => exact Subsingleton.elim (α := Fin 1) _ _
      | ⟨1, _⟩ => rfl
      | ⟨2, _⟩ => rfl⟩
  rw [View.read_apply]
  show (outsAt0 m c t.val t.isLt).1 (ix3 (0 : Fin 1) r o) = G3 m c (((cfg0.win 7).blk t).view.emb (ix3 (0 : Fin 1) r o))
  refine (tile_apply m c t r o).trans ?_
  obtain ⟨-, -, -, -, -, -, -, -, -, -, -, -, e0, e1, e2⟩ := idx_facts t
  have h0 : (((cfg0.win 7).blk t).view.emb (ix3 (0 : Fin 1) r o) : S32x2048x64.Idx) 0 = graphOf t :=
    Fin.ext (by show win0_7.index t (0 : Fin 3) * 1 + 1 * 0 = t.val / 4; omega)
  have h1 : (((cfg0.win 7).blk t).view.emb (ix3 (0 : Fin 1) r o) : S32x2048x64.Idx) 1 = nodeOf t r :=
    Fin.ext (by show win0_7.index t (1 : Fin 3) * 512 + 1 * r.val = (t.val % 4) * 512 + r.val; omega)
  have h2 : (((cfg0.win 7).blk t).view.emb (ix3 (0 : Fin 1) r o) : S32x2048x64.Idx) 2 = o :=
    Fin.ext (by show win0_7.index t (2 : Fin 3) * 64 + 1 * o.val = o.val; omega)
  show _ = outK (feat m c ((((cfg0.win 7).blk t).view.emb (ix3 (0 : Fin 1) r o) : S32x2048x64.Idx) 0)) (wt1 m c) (bs1 m c) (wt2 m c)
    (bs2 m c) (wt3 m c) (bs3 m c) ((((cfg0.win 7).blk t).view.emb (ix3 (0 : Fin 1) r o) : S32x2048x64.Idx) 1)
    ((((cfg0.win 7).blk t).view.emb (ix3 (0 : Fin 1) r o) : S32x2048x64.Idx) 2)
  rw [h0, h1, h2]

/-- An index of the result is in point `t`'s block iff each coordinate is in the block's range on its axis. -/
theorem mem_blk (t : Fin cfg0.N) (i : S32x2048x64.Idx) :
    i ∈ ((cfg0.win 7).blk t).view.set ↔ ∀ a : Fin 3, win0_7.index t a * S1x512x64.size a ≤ (i a).val
      ∧ (i a).val < win0_7.index t a * S1x512x64.size a + S1x512x64.size a := by
  show i ∈ ((View.whole main_v1).slice (win0_7.rect t)).set ↔ _
  rw [View.set_slice_whole, Rect.mem_set_unit]
  exact Iff.rfl

/-- Every index of the result is in the block of the point 4 · (graph) + (node / 512). -/
theorem cover (i : S32x2048x64.Idx) :
    ∃ t : Fin cfg0.N, (cfg0.win 7).flush t = true ∧ i ∈ ((cfg0.win 7).blk t).view.set := by
  have hi0 : (i 0).val < 32 := (i 0).isLt
  have hi1 : (i 1).val < 2048 := (i 1).isLt
  have hi2 : (i 2).val < 64 := (i 2).isLt
  have hN : cfg0.N = 128 := N_0
  have ht : (i 0).val * 4 + (i 1).val / 512 < cfg0.N := by rw [hN]; omega
  obtain ⟨-, -, -, -, -, -, -, -, -, -, -, -, e0, e1, e2⟩ := idx_facts ⟨(i 0).val * 4 + (i 1).val / 512, ht⟩
  refine ⟨⟨(i 0).val * 4 + (i 1).val / 512, ht⟩, flush0_7 _, ?_⟩
  rw [mem_blk]
  have e0' : win0_7.index ⟨(i 0).val * 4 + (i 1).val / 512, ht⟩ (0 : Fin 3) = ((i 0).val * 4 + (i 1).val / 512) / 4 := e0
  have e1' : win0_7.index ⟨(i 0).val * 4 + (i 1).val / 512, ht⟩ (1 : Fin 3) = ((i 0).val * 4 + (i 1).val / 512) % 4 := e1
  intro a
  match a with
  | ⟨0, _⟩ =>
    show win0_7.index ⟨(i 0).val * 4 + (i 1).val / 512, ht⟩ (0 : Fin 3) * 1 ≤ (i 0).val
      ∧ (i 0).val < win0_7.index ⟨(i 0).val * 4 + (i 1).val / 512, ht⟩ (0 : Fin 3) * 1 + 1
    omega
  | ⟨1, _⟩ =>
    show win0_7.index ⟨(i 0).val * 4 + (i 1).val / 512, ht⟩ (1 : Fin 3) * 512 ≤ (i 1).val
      ∧ (i 1).val < win0_7.index ⟨(i 0).val * 4 + (i 1).val / 512, ht⟩ (1 : Fin 3) * 512 + 512
    omega
  | ⟨2, _⟩ =>
    show win0_7.index ⟨(i 0).val * 4 + (i 1).val / 512, ht⟩ (2 : Fin 3) * 64 ≤ (i 2).val
      ∧ (i 2).val < win0_7.index ⟨(i 0).val * 4 + (i 1).val / 512, ht⟩ (2 : Fin 3) * 64 + 64
    omega

/-- So the result array ends holding that function. -/
theorem final (c : Dev nD) : (dats m 0 c).arrAt 7 cfg0.N = G3 m c :=
  (dats m 0 c).arrAt_eq_of_cover 7 (G3 m c) (fun t _ => flushed_eq m c t) (cover)

end Cert.Graph.Final

end
-- ==== Proof.LibLeadAxes.lean ====
/-
  Merging and splitting the two leading axes of an array, in row-major order.

  An array of shape [B·C, n, m] and an array of shape [B, C, n, m] hold the same entries in the same row-major
  order: entry (b·C + c, t, f) of the first and entry (b, c, t, f) of the second both sit at position
  ((b·C + c)·n + t)·m + f. A cast between the two shapes keeps row-major positions, so it reads entry (b, c, t, f)
  of the one where the other has entry (b·C + c, t, f). The merged extent is a variable of its own, N = B·C, so
  that both lemmas apply to shapes whose extents are written as literals.
-/
import Idealize.ShloMosaic.Lib.ValueIdx
import Idealize.ShloMosaic.Lib.ValueLayout
import Idealize.ShloMosaic.Lib.Pipeline.Value

namespace Cert.Lib.LeadAxes

open Idealize.ShloMosaic Idealize.ShloMosaic.ValueIdx

variable {α : Type} {B C n m N : Nat}

/-- [N, n, m] with N = B·C cast to [B, C, n, m]: entry (b, c, t, f) is entry (b·C + c, t, f). -/
theorem shapeCast_split (hN : N = B * C) (X : (⟨3, ![N, n, m]⟩ : Shape).Idx → α)
    (h : (⟨3, ![N, n, m]⟩ : Shape).ShapeCasts ⟨4, ![B, C, n, m]⟩) (b : Fin B) (c : Fin C) (t : Fin n) (f : Fin m)
    (hbc : b.val * C + c.val < N) :
    shapeCast ⟨4, ![B, C, n, m]⟩ X h (ix4 b c t f) = X (ix3 (⟨b.val * C + c.val, hbc⟩ : Fin N) t f) :=
  shapeCast_apply X h _ _ (by
    rw [Shape.rowMajor_val_three, Shape.rowMajor_val_four]
    show ((b.val * C + c.val) * n + t.val) * m + f.val = ((b.val * C + c.val) * n + t.val) * m + f.val
    rfl)

/-- [B, C, n, m] cast to [N, n, m] with N = B·C: entry (b·C + c, t, f) is entry (b, c, t, f). -/
theorem shapeCast_merge (hN : N = B * C) (Y : (⟨4, ![B, C, n, m]⟩ : Shape).Idx → α)
    (h : (⟨4, ![B, C, n, m]⟩ : Shape).ShapeCasts ⟨3, ![N, n, m]⟩) (b : Fin B) (c : Fin C) (t : Fin n) (f : Fin m)
    (hbc : b.val * C + c.val < N) :
    shapeCast ⟨3, ![N, n, m]⟩ Y h (ix3 (⟨b.val * C + c.val, hbc⟩ : Fin N) t f) = Y (ix4 b c t f) :=
  shapeCast_apply Y h _ _ (by
    rw [Shape.rowMajor_val_four, Shape.rowMajor_val_three]
    show ((b.val * C + c.val) * n + t.val) * m + f.val = ((b.val * C + c.val) * n + t.val) * m + f.val
    rfl)

end Cert.Lib.LeadAxes
-- ==== Proof.GraphHead.lean ====
/-
  THE RESHAPE BEFORE THE KERNEL REGION.

  The program's first host operation merges the two leading axes of the node-feature array: the array of shape
  [4, 8, 2048, 64] is cast to shape [32, 2048, 64], keeping row-major positions.  So the array the region finds is
  that cast of the first argument as launched, and its entry (b·8 + c, a, f) is the argument's entry (b, c, a, f).
-/
import proofs.«142887_j30863634989345_2_alg».proof.Proof.Gen.KernelIdeal.Frame
import proofs.«142887_j30863634989345_2_alg».proof.Proof.LibLeadAxes
import Idealize.ShloMosaic.Lib.StableHlo.Run

noncomputable section

namespace Cert.Graph.Head

open Cert.KernelIdeal Cert.KernelIdeal.Gen Idealize.ShloMosaic Idealize.ShloMosaic.TcCoe Idealize.SL.Sem
  Idealize.ShloMosaic.ValueIdx

variable {F : FTy → Type} [FloatOps F] (m : (ℓ : Loc nD τ sig) → Buf (Elt F) ℓ)

/-- The array the region finds is the first argument with its two leading axes merged. -/
theorem head_eq (c : Dev nD) :
    (V m c main_v0 : S32x2048x64.Idx → Elt F .f32)
      = shapeCast S32x2048x64 (m ((c : Thread nD τ).loc main_arg0)) shapeCasts_S4x8x2048x64_S32x2048x64 := by
  show StableHlo.after hostOps0 (fun b => m (c, b)) (Proc.devRef .tc main_v0) = _
  after_results
  rfl

/-- Entry (b·8 + c, a, f) of the merged array is entry (b, c, a, f) of the argument. -/
theorem head_apply (c : Dev nD) (b : Fin 4) (cc : Fin 8) (a : Fin 2048) (f : Fin 64) (hbc : b.val * 8 + cc.val < 32) :
    V m c main_v0 (ix3 (⟨b.val * 8 + cc.val, hbc⟩ : Fin 32) a f) = m ((c : Thread nD τ).loc main_arg0) (ix4 b cc a f) := by
  rw [head_eq]
  exact Cert.Lib.LeadAxes.shapeCast_merge (B := 4) (C := 8) rfl _ _ b cc a f hbc

end Cert.Graph.Head

end
-- ==== Proof.GraphTail.lean ====
/-
  The kernel program's one host operation after its region: the region's output array, of shape [32, 2048, 64],
  is cast to the result's shape [4, 8, 2048, 64].

  A cast keeps row-major positions, so entry (b, c, a, o) of the result is entry (b·8 + c, a, o) of the region's
  output array: the 32 graphs are the 4 × 8 batch pairs in row-major order.
-/
import proofs.«142887_j30863634989345_2_alg».proof.Proof.Gen.KernelIdeal.Frame
import proofs.«142887_j30863634989345_2_alg».proof.Proof.LibLeadAxes
import Idealize.ShloMosaic.Lib.StableHlo.Run
import Idealize.ShloMosaic.Lib.Pipeline.Value

noncomputable section

namespace Cert.Graph.Tail

open Cert.KernelIdeal Cert.KernelIdeal.Gen Idealize.ShloMosaic Idealize.ShloMosaic.TcCoe Idealize.SL.Sem
  Idealize.ShloMosaic.ValueIdx

variable {F : FTy → Type} [FloatOps F] (m : (ℓ : Loc nD τ sig) → Buf (Elt F) ℓ)

/-- What the program leaves in its result buffer on core `c`: the region's output array cast to the result's shape. -/
theorem tail_eq (c : Dev nD) :
    Pipeline.afterTail₀ cfgs (dats m) 0 (V0 m) [hostOps1] c main_v2
      = shapeCast S4x8x2048x64 ((dats m 0 c).arrAt 7 cfg0.N) shapeCasts_S32x2048x64_S4x8x2048x64 := by
  unfold Pipeline.afterTail₀
  show StableHlo.after hostOps1 _ (Proc.devRef .tc main_v2) = _
  after_results
  -- the cast's operand is the eighth window's array, which the region leaves at its final contents
  have h7 : Pipeline.withArrays (cfgs 0).spec c (V0 m c) (fun w => (dats m 0 c).arrAt w (cfgs 0).N)
      (Proc.devRef .tc main_v1) = (dats m 0 c).arrAt 7 cfg0.N :=
    Pipeline.withArrays_arr spec0 launch0.win.arr_inj c _ _ 7
  rw [h7]
  rfl

/-- Entry (b, cc, a, o) of the result is entry (b·8 + cc, a, o) of the region's output array. -/
theorem tail_apply (c : Dev nD) (G : S32x2048x64.Idx → Elt F .f32) (hG : (dats m 0 c).arrAt 7 cfg0.N = G)
    (b : Fin 4) (cc : Fin 8) (a : Fin 2048) (o : Fin 64) (hbc : b.val * 8 + cc.val < 32) :
    Pipeline.afterTail₀ cfgs (dats m) 0 (V0 m) [hostOps1] c main_v2 (ix4 b cc a o)
      = G (ix3 (⟨b.val * 8 + cc.val, hbc⟩ : Fin 32) a o) := by
  rw [tail_eq, hG]
  exact Cert.Lib.LeadAxes.shapeCast_split (B := 4) (C := 8) rfl G _ b cc a o hbc

end Cert.Graph.Tail

end
-- ==== Proof.GraphKernel.lean ====
/-
  The kernel program's result as one function of its seven arguments.

  The program reshapes the node features [4, 8, 2048, 64] to [32, 2048, 64] (graph g = 8·b + c), runs the region, and
  reshapes the region's [32, 2048, 64] result back to [4, 8, 2048, 64].  Both reshapes keep row-major positions, so
  entry (b, c, n, o) of the program's result is the region's entry (8·b + c, n, o), which is the "project, then
  aggregate" entry of node n, output feature o, of the graph whose features are the (b, c) slice of the first
  argument; the weights and biases reach the region unchanged.
-/
import proofs.«142887_j30863634989345_2_alg».proof.Proof.GraphFinal
import proofs.«142887_j30863634989345_2_alg».proof.Proof.GraphHead
import proofs.«142887_j30863634989345_2_alg».proof.Proof.GraphTail

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Graph.Kernel

open Cert.KernelIdeal Cert.KernelIdeal.Gen Cert.Graph.Carry

variable (m : (ℓ : Loc nD τ sig) → Buf (Elt Ideal) ℓ) (ρ : Dev nD → PrngReg)

/-- Entry (b, c, n, o): project every node of graph (b, c) by the third weights, aggregate over the rectified
    similarities of node n, add the third bias. -/
def result (x0 : S4x8x2048x64.Idx → EReal) (x1 : S64x64.Idx → EReal) (x2 : S64.Idx → EReal) (x3 : S64x64.Idx → EReal)
    (x4 : S64.Idx → EReal) (x5 : S64x64.Idx → EReal) (x6 : S64.Idx → EReal) : S4x8x2048x64.Idx → EReal := fun j =>
  outK (fun (a : Fin 2048) (f : Fin 64) => x0 (ix4 (j 0) (j 1) a f)) (fun (h f : Fin 64) => x1 (ix2 h f))
    (fun (h : Fin 64) => x2 (ix1 h)) (fun (h f : Fin 64) => x3 (ix2 h f)) (fun (h : Fin 64) => x4 (ix1 h))
    (fun (p f : Fin 64) => x5 (ix2 p f)) (fun (p : Fin 64) => x6 (ix1 p)) (j 2) (j 3)

/-- What the program's last reshape leaves in the result buffer. -/
theorem tail_value (c : Dev nD) :
    Pipeline.afterTail₀ cfgs (dats m) 0 (V0 m) [hostOps1] c main_v2
      = result (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) := by
  refine funext fun (j : S4x8x2048x64.Idx) => ?_
  obtain ⟨b, cc, n, o, rfl⟩ : ∃ (b : Fin 4) (cc : Fin 8) (n : Fin 2048) (o : Fin 64), j = ix4 b cc n o :=
    ⟨j 0, j 1, j 2, j 3, eq_ix4 j⟩
  have hbc : b.val * 8 + cc.val < 32 := by have := b.isLt; have := cc.isLt; omega
  refine (Cert.Graph.Tail.tail_apply m c (Cert.Graph.Final.G3 m c) (Cert.Graph.Final.final m c) b cc n o hbc).trans ?_
  have hf : feat m c (⟨b.val * 8 + cc.val, hbc⟩ : Fin 32) = fun (a : Fin 2048) (f : Fin 64) => (m ((c.tc : Thread nD τ).loc main_arg0)) (ix4 b cc a f) :=
    funext fun a => funext fun f => Cert.Graph.Head.head_apply m c b cc a f hbc
  have h1 : wt1 m c = fun (h f : Fin 64) => (m ((c.tc : Thread nD τ).loc main_arg1)) (ix2 h f) := by unfold wt1; rw [V_main_arg1]
  have h2 : bs1 m c = fun (h : Fin 64) => (m ((c.tc : Thread nD τ).loc main_arg2)) (ix1 h) := by unfold bs1; rw [V_main_arg2]
  have h3 : wt2 m c = fun (h f : Fin 64) => (m ((c.tc : Thread nD τ).loc main_arg3)) (ix2 h f) := by unfold wt2; rw [V_main_arg3]
  have h4 : bs2 m c = fun (h : Fin 64) => (m ((c.tc : Thread nD τ).loc main_arg4)) (ix1 h) := by unfold bs2; rw [V_main_arg4]
  have h5 : wt3 m c = fun (h f : Fin 64) => (m ((c.tc : Thread nD τ).loc main_arg5)) (ix2 h f) := by unfold wt3; rw [V_main_arg5]
  have h6 : bs3 m c = fun (h : Fin 64) => (m ((c.tc : Thread nD τ).loc main_arg6)) (ix1 h) := by unfold bs3; rw [V_main_arg6]
  show outK (feat m c (⟨b.val * 8 + cc.val, hbc⟩ : Fin 32)) (wt1 m c) (bs1 m c) (wt2 m c) (bs2 m c) (wt3 m c) (bs3 m c) n o = _
  rw [hf, h1, h2, h3, h4, h5, h6]
  rfl

/-- Every weakly fair execution of the kernel program terminates with its result buffer at that function of the
    arguments and the arguments unchanged. -/
theorem run : θ_run defs (onTc (τ := τ) (main (F := Ideal))) ⟨m, fun _ => 0, ρ⟩ fun r => ∀ c : Dev nD,
      r.2.mem ((c.tc : Thread nD τ).loc main_v2)
        = result (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6)) :=
  (θ_run defs _ _).mono (fun _ h c =>
    ⟨((h c).2 main_v2 (Pipeline.mem_restRefs_of main_v2 (by decide) (by decide))).trans (tail_value m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.Graph.Kernel

end
-- ==== Proof.GraphRef.lean ====
/-
  The reference program read at an index is the "aggregate first, then project" form of the graph layer.

  The reference computes, for every batch pair (b, c), node n and output feature o,

    ( Σ_f ( Σ_m max( Σ_h (Σ_f' X n f' · W1 h f' + B1 h) · (Σ_f' X m f' · W2 h f' + B2 h), 0 ) · X m f ) · W3 o f ) + B3 o

  with X the (b, c) slice of the node features.  Each stage of the reference is read at an index built from
  coordinates; the index maps composed by the stages send such an index to one built from the same coordinates, so
  the nested sums are, term by term, those of the specification.
-/
import proofs.«142887_j30863634989345_2_alg».proof.Proof.GraphSpec
import proofs.«142887_j30863634989345_2_alg».proof.Proof.Gen.ReferenceIdeal.Read
import Idealize.ShloMosaic.Lib.ValueIdx

noncomputable section

open scoped BigOperators

namespace Cert.Graph.Ref

open Cert.ReferenceIdeal Cert.ReferenceIdeal.Read Idealize.ShloMosaic Idealize.ShloMosaic.ValueIdx

/-! ## The stages' index maps at an index given by its coordinates

  Each composed index map sends an index built from coordinates to the index built from the coordinates the stage
  reads: a dense layer reads row (b, c, n) of the features against row h of the weights, the similarity reads rows n
  and m of the two embeddings, the aggregation reads row n of the adjacency against column f of the features, and a
  bias is read at the last coordinate. -/

theorem lidx0_ix (b : Fin 4) (c : Fin 8) (n : Fin 2048) (h k : Fin 64) :
    lidx_main_v0 (ix4 b c n h) k = ix4 b c n k :=
  funext fun a => by match a with | ⟨0, _⟩ => rfl | ⟨1, _⟩ => rfl | ⟨2, _⟩ => rfl | ⟨3, _⟩ => rfl

theorem ridx0_ix (b : Fin 4) (c : Fin 8) (n : Fin 2048) (h k : Fin 64) :
    ridx_main_v0 (ix4 b c n h) k = ix2 h k :=
  funext fun a => by match a with | ⟨0, _⟩ => rfl | ⟨1, _⟩ => rfl

theorem bidx2_ix (b : Fin 4) (c : Fin 8) (n : Fin 2048) (h : Fin 64) :
    idx_main_v1 (idx_main_v2 (ix4 b c n h)) = ix1 h :=
  funext fun a => by match a with | ⟨0, _⟩ => rfl

theorem lidx4_ix (b : Fin 4) (c : Fin 8) (n : Fin 2048) (h k : Fin 64) :
    lidx_main_v4 (ix4 b c n h) k = ix4 b c n k :=
  funext fun a => by match a with | ⟨0, _⟩ => rfl | ⟨1, _⟩ => rfl | ⟨2, _⟩ => rfl | ⟨3, _⟩ => rfl

theorem ridx4_ix (b : Fin 4) (c : Fin 8) (n : Fin 2048) (h k : Fin 64) :
    ridx_main_v4 (ix4 b c n h) k = ix2 h k :=
  funext fun a => by match a with | ⟨0, _⟩ => rfl | ⟨1, _⟩ => rfl

theorem bidx6_ix (b : Fin 4) (c : Fin 8) (n : Fin 2048) (h : Fin 64) :
    idx_main_v5 (idx_main_v6 (ix4 b c n h)) = ix1 h :=
  funext fun a => by match a with | ⟨0, _⟩ => rfl

theorem lidx8_ix (b : Fin 4) (c : Fin 8) (n m : Fin 2048) (h : Fin 64) :
    lidx_main_v8 (ix4 b c n m) h = ix4 b c n h :=
  funext fun a => by match a with | ⟨0, _⟩ => rfl | ⟨1, _⟩ => rfl | ⟨2, _⟩ => rfl | ⟨3, _⟩ => rfl

theorem ridx8_ix (b : Fin 4) (c : Fin 8) (n m : Fin 2048) (h : Fin 64) :
    ridx_main_v8 (ix4 b c n m) h = ix4 b c m h :=
  funext fun a => by match a with | ⟨0, _⟩ => rfl | ⟨1, _⟩ => rfl | ⟨2, _⟩ => rfl | ⟨3, _⟩ => rfl

theorem lidx10_ix (b : Fin 4) (c : Fin 8) (n : Fin 2048) (f : Fin 64) (m : Fin 2048) :
    lidx_main_v10 (ix4 b c n f) m = ix4 b c n m :=
  funext fun a => by match a with | ⟨0, _⟩ => rfl | ⟨1, _⟩ => rfl | ⟨2, _⟩ => rfl | ⟨3, _⟩ => rfl

theorem ridx10_ix (b : Fin 4) (c : Fin 8) (n : Fin 2048) (f : Fin 64) (m : Fin 2048) :
    ridx_main_v10 (ix4 b c n f) m = ix4 b c m f :=
  funext fun a => by match a with | ⟨0, _⟩ => rfl | ⟨1, _⟩ => rfl | ⟨2, _⟩ => rfl | ⟨3, _⟩ => rfl

theorem lidx11_ix (b : Fin 4) (c : Fin 8) (n : Fin 2048) (o f : Fin 64) :
    lidx_main_v11 (ix4 b c n o) f = ix4 b c n f :=
  funext fun a => by match a with | ⟨0, _⟩ => rfl | ⟨1, _⟩ => rfl | ⟨2, _⟩ => rfl | ⟨3, _⟩ => rfl

theorem ridx11_ix (b : Fin 4) (c : Fin 8) (n : Fin 2048) (o f : Fin 64) :
    ridx_main_v11 (ix4 b c n o) f = ix2 o f :=
  funext fun a => by match a with | ⟨0, _⟩ => rfl | ⟨1, _⟩ => rfl

theorem bidx13_ix (b : Fin 4) (c : Fin 8) (n : Fin 2048) (o : Fin 64) :
    idx_main_v12 (idx_main_v13 (ix4 b c n o)) = ix1 o :=
  funext fun a => by match a with | ⟨0, _⟩ => rfl

/-! ## The stages, from the inside out -/

/-- The first dense layer at row (b, c, n), output feature h. -/
theorem emb1_apply (x0 : S4x8x2048x64.Idx → EReal) (x1 : S64x64.Idx → EReal) (x2 : S64.Idx → EReal)
    (b : Fin 4) (c : Fin 8) (n : Fin 2048) (h : Fin 64) :
    val_main_v3 (F := Ideal) x0 x1 x2 (ix4 b c n h)
      = Cert.Graph.emb (fun (a : Fin 2048) (f : Fin 64) => x0 (ix4 b c a f)) (fun (h f : Fin 64) => x1 (ix2 h f))
          (fun (h : Fin 64) => x2 (ix1 h)) n h := by
  rw [val_main_v3_apply, val_main_v0_apply, val_main_v2_apply, val_main_v1_apply]
  simp only [lidx0_ix, ridx0_ix, bidx2_ix, Ideal.addf_def]
  rfl

/-- The second dense layer at row (b, c, m), output feature h. -/
theorem emb2_apply (x0 : S4x8x2048x64.Idx → EReal) (x3 : S64x64.Idx → EReal) (x4 : S64.Idx → EReal)
    (b : Fin 4) (c : Fin 8) (m : Fin 2048) (h : Fin 64) :
    val_main_v7 (F := Ideal) x0 x3 x4 (ix4 b c m h)
      = Cert.Graph.emb (fun (a : Fin 2048) (f : Fin 64) => x0 (ix4 b c a f)) (fun (h f : Fin 64) => x3 (ix2 h f))
          (fun (h : Fin 64) => x4 (ix1 h)) m h := by
  rw [val_main_v7_apply, val_main_v4_apply, val_main_v6_apply, val_main_v5_apply]
  simp only [lidx4_ix, ridx4_ix, bidx6_ix, Ideal.addf_def]
  rfl

/-- The rectified similarity of nodes n and m of the graph (b, c). -/
theorem adj_apply (x0 : S4x8x2048x64.Idx → EReal) (x1 : S64x64.Idx → EReal) (x2 : S64.Idx → EReal)
    (x3 : S64x64.Idx → EReal) (x4 : S64.Idx → EReal) (b : Fin 4) (c : Fin 8) (n m : Fin 2048) :
    val_main_v9 (F := Ideal) x0 x1 x2 x3 x4 (ix4 b c n m)
      = Cert.Graph.adj (fun (a : Fin 2048) (f : Fin 64) => x0 (ix4 b c a f)) (fun (h f : Fin 64) => x1 (ix2 h f))
          (fun (h : Fin 64) => x2 (ix1 h)) (fun (h f : Fin 64) => x3 (ix2 h f)) (fun (h : Fin 64) => x4 (ix1 h)) n m := by
  rw [val_main_v9_apply, val_main_v8_apply, val_main_call0_v0_apply, val_main_call0_cst_apply]
  simp only [lidx8_ix, ridx8_ix, emb1_apply, emb2_apply, Ideal.maximumf_def, Ideal.ofBits_def]
  rfl

/-- The aggregated feature f of node n of the graph (b, c): the adjacency row against the feature column. -/
theorem agg_apply (x0 : S4x8x2048x64.Idx → EReal) (x1 : S64x64.Idx → EReal) (x2 : S64.Idx → EReal)
    (x3 : S64x64.Idx → EReal) (x4 : S64.Idx → EReal) (b : Fin 4) (c : Fin 8) (n : Fin 2048) (f : Fin 64) :
    val_main_v10 (F := Ideal) x0 x1 x2 x3 x4 (ix4 b c n f)
      = ∑ m : Fin 2048,
          Cert.Graph.adj (fun (a : Fin 2048) (f : Fin 64) => x0 (ix4 b c a f)) (fun (h f : Fin 64) => x1 (ix2 h f))
            (fun (h : Fin 64) => x2 (ix1 h)) (fun (h f : Fin 64) => x3 (ix2 h f)) (fun (h : Fin 64) => x4 (ix1 h)) n m
          * x0 (ix4 b c m f) := by
  rw [val_main_v10_apply]
  simp only [lidx10_ix, ridx10_ix, adj_apply]

/-! ## The reference's result -/

/-- The reference's result at (b, c, n, o) is the specification's "aggregate first, then project" form on the
    (b, c) slice of the features. -/
theorem ref_apply (x0 : S4x8x2048x64.Idx → EReal) (x1 : S64x64.Idx → EReal) (x2 : S64.Idx → EReal)
    (x3 : S64x64.Idx → EReal) (x4 : S64.Idx → EReal) (x5 : S64x64.Idx → EReal) (x6 : S64.Idx → EReal)
    (b : Fin 4) (c : Fin 8) (n : Fin 2048) (o : Fin 64) :
    val_main_v14 (F := Ideal) x0 x1 x2 x3 x4 x5 x6 (ix4 b c n o)
      = Cert.Graph.outR (fun (a : Fin 2048) (f : Fin 64) => x0 (ix4 b c a f)) (fun (h f : Fin 64) => x1 (ix2 h f))
          (fun (h : Fin 64) => x2 (ix1 h)) (fun (h f : Fin 64) => x3 (ix2 h f)) (fun (h : Fin 64) => x4 (ix1 h))
          (fun (p f : Fin 64) => x5 (ix2 p f)) (fun (p : Fin 64) => x6 (ix1 p)) n o := by
  rw [val_main_v14_apply, val_main_v11_apply, val_main_v13_apply, val_main_v12_apply]
  simp only [lidx11_ix, ridx11_ix, bidx13_ix, agg_apply, Ideal.addf_def]
  rfl

end Cert.Graph.Ref

end
-- ==== Proof.LibFinite.lean ====
/-
  FINITENESS ON THE EXTENDED REALS.  An entry is finite when it is a real number.  Sums, differences, products and
  maxima of finite entries are finite; a finite sum of finite entries is finite; the reciprocal square root of a
  positive real is finite; and  select (d > 0, rsqrt d, 0)  is finite for EVERY extended real d (the degree's
  reciprocal square root, guarded: at +∞ the reciprocal square root is 0, and where d is not positive the zero is
  taken).  An accumulating scatter into finite entries of finite updates is finite wherever the updates land, because
  each entry is the old entry plus a finite sum of updates.
-/
import Idealize.ShloMosaic.PureOps.Ideal
import Idealize.ShloMosaic.PureOps.Ideal.Laws
import Idealize.ShloMosaic.Lib.ValueIdx

noncomputable section

open scoped BigOperators

namespace Cert.Finite

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, by simp⟩

theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.max {x y : EReal} (hx : IsReal x) (hy : IsReal y) : IsReal (max x y) := by
  rcases le_total x y with h | h
  · rw [max_eq_right h]; exact hy
  · rw [max_eq_left h]; exact hx

/-- A finite sum of finite entries is finite. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The float zero is finite. -/
theorem isReal_zeroWord : IsReal (Ideal.ofBits .f32 0x00000000#32) := by rw [Ideal.ofBits_zero_f32]; exact isReal_zero

/-- The float 1e-5 is a positive real. -/
theorem eps_pos : ∃ e : ℝ, 0 < e ∧ Ideal.ofBits .f32 0x3727C5AC#32 = (e : EReal) := by
  refine ⟨_, ?_, by simp [Ideal.ofBits, Ideal.ieee, -EReal.coe_mul]; rfl⟩
  norm_num

/-- The reciprocal square root of a positive real is finite. -/
theorem isReal_rsqrt_pos {v : ℝ} (hv : 0 < v) : IsReal (Ideal.rsqrt (v : EReal)) := by
  rw [Ideal.rsqrt_coe, if_neg (not_lt.2 hv.le), if_neg hv.ne']
  exact ⟨_, rfl⟩

/-- A quotient of a real by the float 100000.0 is finite. -/
theorem isReal_div_1e5 {x : EReal} (hx : IsReal x) : IsReal (Ideal.div x (Ideal.ofBits .f32 0x47C35000#32)) := by
  obtain ⟨a, rfl⟩ := hx
  have h : Ideal.ofBits .f32 0x47C35000#32 = ((100000 : ℝ) : EReal) := by
    simp [Ideal.ofBits, Ideal.ieee, -EReal.coe_mul]; norm_num
  rw [h, Ideal.div_coe (by norm_num : (100000 : ℝ) ≠ 0), ← EReal.coe_mul]
  exact ⟨_, rfl⟩

/-- The guarded reciprocal square root is finite at every extended real. -/
theorem isReal_guarded (d z z' : EReal) (hz : z = 0) (hz' : IsReal z') :
    IsReal (Scalar.select (Ideal.cmp .ogt d z) (Ideal.rsqrt d) z') := by
  unfold Scalar.select
  split
  · rename_i h
    have hd : (0 : EReal) < d := by
      subst hz
      unfold Ideal.cmp at h
      by_contra hn
      simp [hn] at h
    induction d using EReal.rec with
    | bot => exact absurd hd (by simp)
    | top => rw [Ideal.rsqrt_top]; exact isReal_zero
    | coe r => exact isReal_rsqrt_pos (by exact_mod_cast hd)
  · exact hz'

/-- An accumulating scatter of finite updates into finite entries is finite. -/
theorem isReal_scatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (isReal_sum _ _ fun j _ => hu j)

/-- An extended real that is a nonnegative real number. -/
def IsNN (x : EReal) : Prop := ∃ r : ℝ, 0 ≤ r ∧ x = (r : EReal)

theorem IsNN.isReal {x : EReal} : IsNN x → IsReal x | ⟨r, _, h⟩ => ⟨r, h⟩

/-- The square of a finite entry is a nonnegative real. -/
theorem IsReal.mul_self {x : EReal} : IsReal x → IsNN (x * x)
  | ⟨a, ha⟩ => ⟨a * a, mul_self_nonneg a, by rw [ha, EReal.coe_mul]⟩

theorem IsNN.add {x y : EReal} : IsNN x → IsNN y → IsNN (x + y)
  | ⟨a, ha0, ha⟩, ⟨b, hb0, hb⟩ => ⟨a + b, add_nonneg ha0 hb0, by rw [ha, hb, EReal.coe_add]⟩

theorem isNN_zero : IsNN 0 := ⟨0, le_refl 0, by simp⟩
theorem isNN_zeroWord : IsNN (Ideal.ofBits .f32 0x00000000#32) := by rw [Ideal.ofBits_zero_f32]; exact isNN_zero

/-- A finite sum of nonnegative reals is a nonnegative real. -/
theorem isNN_sum {ι : Type*} (s : Finset ι) (f : ι → EReal) (h : ∀ i ∈ s, IsNN (f i)) : IsNN (∑ i ∈ s, f i) := by
  classical
  induction s using Finset.induction_on with
  | empty => simpa using isNN_zero
  | insert a s ha ih =>
    rw [Finset.sum_insert ha]
    exact (h a (Finset.mem_insert_self a s)).add (ih fun i hi => h i (Finset.mem_insert_of_mem hi))

/-- A nonnegative real divided by the float 100000.0 is a nonnegative real. -/
theorem IsNN.div_1e5 {x : EReal} : IsNN x → IsNN (Ideal.div x (Ideal.ofBits .f32 0x47C35000#32))
  | ⟨a, ha0, ha⟩ => by
    have h : Ideal.ofBits .f32 0x47C35000#32 = ((100000 : ℝ) : EReal) := by
      simp [Ideal.ofBits, Ideal.ieee, -EReal.coe_mul]; norm_num
    rw [ha, h, Ideal.div_coe (by norm_num : (100000 : ℝ) ≠ 0), ← EReal.coe_mul]
    exact ⟨_, mul_nonneg ha0 (by norm_num), rfl⟩

/-- The reciprocal square root of a nonnegative real plus the float 1e-5 is finite. -/
theorem IsNN.rsqrt_add_eps {v : EReal} : IsNN v → IsReal (Ideal.rsqrt (v + Ideal.ofBits .f32 0x3727C5AC#32))
  | ⟨a, ha0, ha⟩ => by
    obtain ⟨e, he0, he⟩ := eps_pos
    rw [ha, he, ← EReal.coe_add]
    exact isReal_rsqrt_pos (by linarith)

/-! ## Whole arrays of finite entries -/

/-- Every entry is finite. -/
def AllReal {ι : Type} (f : ι → EReal) : Prop := ∀ i, IsReal (f i)

/-- A broadcast's entries are entries of its operand. -/
theorem AllReal.bcast {s t : Shape} {x : s.Idx → EReal} (hx : AllReal x) (dims : Fin s.rank → Fin t.rank)
    (h : s.BroadcastsInDim t dims) : AllReal (broadcastInDim t dims h x) := fun _ => hx _

/-- A gather's entries are entries of its operand. -/
theorem AllReal.gather {s si t : Shape} {w : Nat} {x : s.Idx → EReal} (hx : AllReal x) (d : GatherDims s si t) (idx : IVec si w) :
    AllReal (Host.gather d x idx) := fun _ => hx _

/-- A reshape's entries are entries of its operand. -/
theorem AllReal.cast {s t : Shape} {x : s.Idx → EReal} (hx : AllReal x) (h : s.ShapeCasts t) : AllReal (shapeCast t x h) :=
  fun _ => hx _

theorem AllReal.mulf {s : Shape} {φ : FTy} {x y : FVec Ideal s φ} (hx : AllReal x) (hy : AllReal y) : AllReal (mulf x y) :=
  fun i => (hx i).mul (hy i)
theorem AllReal.addf {s : Shape} {φ : FTy} {x y : FVec Ideal s φ} (hx : AllReal x) (hy : AllReal y) : AllReal (addf x y) :=
  fun i => (hx i).add (hy i)

/-- The zero array. -/
theorem allReal_zeros {s : Shape} (dims : Fin (⟨0, ![]⟩ : Shape).rank → Fin s.rank) (h : (⟨0, ![]⟩ : Shape).BroadcastsInDim s dims) :
    AllReal (broadcastInDim s dims h (constant (F := Ideal) ⟨0, ![]⟩ .f32 0x00000000#32)) :=
  fun _ => isReal_zeroWord

/-- An accumulating scatter of finite updates into finite entries. -/
theorem AllReal.scatterAdd {s si su : Shape} {w : Nat} {x : FVec Ideal s .f32} {u : FVec Ideal su .f32} (hx : AllReal x) (hu : AllReal u)
    (d : ScatterDims s si su) (idx : IVec si w) : AllReal (Host.scatterAdd d x idx u) :=
  fun i => isReal_scatterAdd d x idx u hx hu i

/-- A matrix product (any contraction) of finite arrays. -/
theorem AllReal.dot {sl sr so : Shape} {φ₁ φ₂ : FTy} {a : FVec Ideal sl φ₁} {b : FVec Ideal sr φ₂} (ha : AllReal a) (hb : AllReal b)
    (d : DotDims sl sr so) (prec : Option ContractPrecision) : AllReal (Host.dotGeneral d prec a b) := fun j => by
  show IsReal (FloatOps.dotGeneral d prec .single a b j)
  rw [Ideal.dotGeneral_apply]
  exact isReal_sum _ _ fun k _ => (ha _).mul (hb _)

/-- The guarded reciprocal square root of ANY array: select (deg > 0, rsqrt deg, 0). -/
theorem allReal_guard {s : Shape} (deg z z' : FVec Ideal s .f32) (hz : ∀ i, z i = 0) (hz' : AllReal z') :
    AllReal (select (cmpf .ogt deg z) (Host.rsqrt deg) z') := fun i =>
  isReal_guarded (deg i) (z i) (z' i) (hz i) (hz' i)

end Cert.Finite

end
-- ==== Proof.GraphAlgebra.lean ====
/-
  THE TWO ORDERS OF AGGREGATION AGREE ON REAL ENTRIES.

  With real entries a_m (the rectified similarities of one node with every node m), x_mf (the node features) and
  w_f (one row of the projection),

      Σ_m a_m · (Σ_f x_mf · w_f)  =  Σ_f (Σ_m a_m · x_mf) · w_f ,

  by distributing each factor over the inner sum, exchanging the two finite sums and reassociating the products.
  The identity is proved in ℝ and carried to the extended reals through the coercion, which commutes with products
  and with finite sums.  The similarities are real because a dense layer of real entries is real, a finite sum of
  products of reals is real, and the maximum of two reals is real.  The last bias is added on both sides and may
  be any extended real.
-/
import proofs.«142887_j30863634989345_2_alg».proof.Proof.GraphSpec
import proofs.«142887_j30863634989345_2_alg».proof.Proof.LibFinite

noncomputable section

open scoped BigOperators

namespace Cert.Graph

open Idealize.ShloMosaic Cert.Finite

/-- The coercion ℝ → EReal commutes with finite sums. -/
theorem coe_finset_sum {α : Type*} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {ι κ : Type} [Fintype ι] [Fintype κ]

/-- A dense layer of real entries is real. -/
theorem isReal_emb (X : ι → κ → EReal) (W : κ → κ → EReal) (B : κ → EReal)
    (hX : ∀ n f, IsReal (X n f)) (hW : ∀ h f, IsReal (W h f)) (hB : ∀ h, IsReal (B h)) (n : ι) (h : κ) :
    IsReal (emb X W B n h) := by
  unfold emb
  exact (isReal_sum _ _ fun f _ => (hX n f).mul (hW h f)).add (hB h)

/-- The rectified similarity of two nodes with real features, weights and biases is real. -/
theorem isReal_adj (X : ι → κ → EReal) (W1 : κ → κ → EReal) (B1 : κ → EReal) (W2 : κ → κ → EReal) (B2 : κ → EReal)
    (hX : ∀ n f, IsReal (X n f)) (hW1 : ∀ h f, IsReal (W1 h f)) (hB1 : ∀ h, IsReal (B1 h))
    (hW2 : ∀ h f, IsReal (W2 h f)) (hB2 : ∀ h, IsReal (B2 h)) (n m : ι) :
    IsReal (adj X W1 B1 W2 B2 n m) := by
  unfold adj
  exact IsReal.max
    (isReal_sum _ _ fun h _ => (isReal_emb X W1 B1 hX hW1 hB1 n h).mul (isReal_emb X W2 B2 hX hW2 hB2 m h))
    isReal_zeroWord

/-- The exchange of the two sums, in ℝ. -/
theorem real_exchange (a : ι → ℝ) (x : ι → κ → ℝ) (w : κ → ℝ) :
    ∑ m : ι, a m * (∑ f : κ, x m f * w f) = ∑ f : κ, (∑ m : ι, a m * x m f) * w f := by
  simp only [Finset.mul_sum, Finset.sum_mul]
  rw [Finset.sum_comm]
  exact Finset.sum_congr rfl fun f _ => Finset.sum_congr rfl fun m _ => by ring

/-- Projecting first and aggregating first give the same entry when every input but the last bias is real. -/
theorem outK_eq_outR (X : ι → κ → EReal) (W1 : κ → κ → EReal) (B1 : κ → EReal) (W2 : κ → κ → EReal) (B2 : κ → EReal)
    (W3 : κ → κ → EReal) (B3 : κ → EReal)
    (hX : ∀ n f, Cert.Finite.IsReal (X n f)) (hW1 : ∀ h f, Cert.Finite.IsReal (W1 h f))
    (hB1 : ∀ h, Cert.Finite.IsReal (B1 h)) (hW2 : ∀ h f, Cert.Finite.IsReal (W2 h f))
    (hB2 : ∀ h, Cert.Finite.IsReal (B2 h)) (hW3 : ∀ o f, Cert.Finite.IsReal (W3 o f)) (n : ι) (o : κ) :
    outK X W1 B1 W2 B2 W3 B3 n o = outR X W1 B1 W2 B2 W3 B3 n o := by
  have hadj : ∀ m, IsReal (adj X W1 B1 W2 B2 n m) := fun m => isReal_adj X W1 B1 W2 B2 hX hW1 hB1 hW2 hB2 n m
  choose a ha using hadj
  choose x hx using hX
  choose w hw using hW3
  have hK : (∑ m : ι, adj X W1 B1 W2 B2 n m * (∑ f : κ, X m f * W3 o f))
      = ((∑ m : ι, a m * (∑ f : κ, x m f * w o f) : ℝ) : EReal) := by
    rw [coe_finset_sum]
    refine Finset.sum_congr rfl fun m _ => ?_
    rw [EReal.coe_mul, coe_finset_sum, ha m]
    congr 1
    refine Finset.sum_congr rfl fun f _ => ?_
    rw [EReal.coe_mul, hx m f, hw o f]
  have hR : (∑ f : κ, (∑ m : ι, adj X W1 B1 W2 B2 n m * X m f) * W3 o f)
      = ((∑ f : κ, (∑ m : ι, a m * x m f) * w o f : ℝ) : EReal) := by
    rw [coe_finset_sum]
    refine Finset.sum_congr rfl fun f _ => ?_
    rw [EReal.coe_mul, coe_finset_sum, hw o f]
    congr 1
    refine Finset.sum_congr rfl fun m _ => ?_
    rw [EReal.coe_mul, ha m, hx m f]
  unfold outK outR
  rw [hK, hR, real_exchange a x (w o)]

end Cert.Graph

end
-- ==== Proof.GraphFinite.lean ====
/-
  THE PRECONDITION, READ BACK: EVERY INPUT ENTRY IS A REAL NUMBER.

  The precondition is the conjunction, over the seven input arrays, of  all (|a| < +∞).  A conjunction of one-bit
  words that is 1 has every conjunct 1; a reduction by "and" over all axes that is 1 met a 1 at every index; and at an
  index the comparison  max x (-x) < +∞  on the extended reals excludes x = +∞ and x = -∞, so x is a real number.
  The float word 0x7F800000 denotes +∞.
-/
import proofs.«142887_j30863634989345_2_alg».proof.Pre_finite_inputs
import proofs.«142887_j30863634989345_2_alg».proof.Proof.LibFinite
import Idealize.ShloMosaic.Lib.ReduceAll

noncomputable section

namespace Cert.Graph.Pre

open Idealize.ShloMosaic Cert.Finite Cert.Pre_finite_inputs

/-- The shape with no axes has exactly one index. -/
instance : Subsingleton S_.Idx := ⟨fun a b => funext fun d => d.elim0⟩

/-- The float word of +∞. -/
theorem inf_word : Ideal.ofBits .f32 0x7F800000#32 = (⊤ : EReal) := by simp [Ideal.ofBits, Ideal.ieee]

/-- An extended real whose absolute value is below +∞ is a real number. -/
theorem isReal_of_abs_lt_inf (x : EReal)
    (h : Ideal.cmp .olt (max x (-x)) (Ideal.ofBits .f32 0x7F800000#32) = 1#1) : IsReal x := by
  rw [inf_word] at h
  have h' : max x (-x) < ⊤ := by
    by_contra hn
    simp [Ideal.cmp, hn] at h
  induction x using EReal.rec with
  | bot => simp at h'
  | top => simp at h'
  | coe r => exact ⟨r, rfl⟩

/-- One array: if  all (|a| < +∞)  came out 1, every entry of a is real. -/
theorem allReal_of_all {s : Shape} {axes : List (Fin s.rank)} (a : FVec Ideal s .f32)
    (dims : Fin S_.rank → Fin s.rank) (hb : S_.BroadcastsInDim s dims) (hr : s.ReducesTo axes S_) (hu : 0 < S_.numel)
    (init : IVec S_ 1) (j : S_.Idx)
    (e : Host.reduce IntOp.andi
          (cmpf .olt (Host.absf a) (broadcastInDim s dims hb (constant (F := Ideal) S_ .f32 0x7F800000#32))) init hr hu j
        = 1#1) : AllReal a := fun i =>
  isReal_of_abs_lt_inf (a i) (Host.reduce_andi_all _ init hr hu j e i)

/-- The precondition gives every entry of every input real. -/
theorem allReal_of_pre [Cert.Pre_finite_inputs.Facts] (a0 : FVec Ideal Cert.Pre_finite_inputs.S4x8x2048x64 .f32)
    (a1 : FVec Ideal Cert.Pre_finite_inputs.S64x64 .f32) (a2 : FVec Ideal Cert.Pre_finite_inputs.S64 .f32)
    (a3 : FVec Ideal Cert.Pre_finite_inputs.S64x64 .f32) (a4 : FVec Ideal Cert.Pre_finite_inputs.S64 .f32)
    (a5 : FVec Ideal Cert.Pre_finite_inputs.S64x64 .f32) (a6 : FVec Ideal Cert.Pre_finite_inputs.S64 .f32)
    (h : Cert.Pre_finite_inputs.fn (F := Ideal) a0 a1 a2 a3 a4 a5 a6 = (fun _ => 1#1)) :
    Cert.Finite.AllReal a0 ∧ Cert.Finite.AllReal a1 ∧ Cert.Finite.AllReal a2 ∧ Cert.Finite.AllReal a3 ∧
      Cert.Finite.AllReal a4 ∧ Cert.Finite.AllReal a5 ∧ Cert.Finite.AllReal a6 := by
  have h0 := congrFun h ValueIdx.ix0
  dsimp only [fn, fn_part1] at h0
  obtain ⟨h05, e6⟩ := IntOp.andi_eq_one.1 h0
  obtain ⟨h04, e5⟩ := IntOp.andi_eq_one.1 h05
  obtain ⟨h03, e4⟩ := IntOp.andi_eq_one.1 h04
  obtain ⟨h02, e3⟩ := IntOp.andi_eq_one.1 h03
  obtain ⟨h01, e2⟩ := IntOp.andi_eq_one.1 h02
  obtain ⟨e0, e1⟩ := IntOp.andi_eq_one.1 h01
  exact ⟨allReal_of_all a0 _ _ _ _ _ _ e0, allReal_of_all a1 _ _ _ _ _ _ e1, allReal_of_all a2 _ _ _ _ _ _ e2,
    allReal_of_all a3 _ _ _ _ _ _ e3, allReal_of_all a4 _ _ _ _ _ _ e4, allReal_of_all a5 _ _ _ _ _ _ e5,
    allReal_of_all a6 _ _ _ _ _ _ e6⟩

end Cert.Graph.Pre

end
-- ==== Proof.lean ====
/- The proof of `Cert.Claim`: a graph layer whose adjacency is the rectified similarity of two dense embeddings.

   Per graph, with node features X, the kernel computes  out = relu(e1 · e2ᵀ) · (X · W3ᵀ) + b3  where e1 = X · W1ᵀ + b1 and
   e2 = X · W2ᵀ + b2: at the first query tile of a graph it stores e2 and X · W3ᵀ in two arrays it carries across the
   graph's four tiles, and every tile aggregates the projected rows over its rectified similarities.  The reference
   computes  (relu(e1 · e2ᵀ) · X) · W3ᵀ + b3: it aggregates the raw features first and projects afterwards.  On the
   extended reals the two differ by exchanging two finite sums and distributing a factor over a sum, which holds when
   every entry is a real number; the precondition says exactly that of the seven inputs, and it is used here.

   The modules: GraphSpec (the two forms, entry by entry), GraphAlgebra (they agree on real entries), GraphFinite (the
   precondition read back as "every input entry is real"), GraphPayload (the body's arithmetic at an index),
   GraphPieces (what one run of the body stores, in each of its two cases), GraphBlocks (where each block sits in its
   array), GraphCarry (the carried arrays and the output tile after every grid point, by induction on the point),
   GraphFinal (the region's whole result array), GraphHead and GraphTail (the reshapes before and after the region),
   GraphKernel (the kernel program's result as one function of its arguments), GraphRef (the reference at an index).
   The three frames are the programs' runs with the results dropped; the idealization rewrote nothing. -/
import proofs.«142887_j30863634989345_2_alg».proof.Defs
import proofs.«142887_j30863634989345_2_alg».proof.Proof.Gen.Kernel
import proofs.«142887_j30863634989345_2_alg».proof.Proof.Gen.Kernel.Skeleton
import proofs.«142887_j30863634989345_2_alg».proof.Proof.Gen.Kernel.Launch
import proofs.«142887_j30863634989345_2_alg».proof.Proof.Gen.Kernel.Points
import proofs.«142887_j30863634989345_2_alg».proof.Proof.Gen.Kernel.Frame
import proofs.«142887_j30863634989345_2_alg».proof.Proof.Gen.KernelIdeal
import proofs.«142887_j30863634989345_2_alg».proof.Proof.Gen.KernelIdeal.Skeleton
import proofs.«142887_j30863634989345_2_alg».proof.Proof.Gen.KernelIdeal.Launch
import proofs.«142887_j30863634989345_2_alg».proof.Proof.Gen.KernelIdeal.Points
import proofs.«142887_j30863634989345_2_alg».proof.Proof.Gen.KernelIdeal.Frame
import proofs.«142887_j30863634989345_2_alg».proof.Proof.Gen.ReferenceIdeal
import proofs.«142887_j30863634989345_2_alg».proof.Proof.Gen.ReferenceIdeal.Read
import proofs.«142887_j30863634989345_2_alg».proof.Proof.Gen.Pre_finite_inputs
import proofs.«142887_j30863634989345_2_alg».proof.Proof.GraphKernel
import proofs.«142887_j30863634989345_2_alg».proof.Proof.GraphRef
import proofs.«142887_j30863634989345_2_alg».proof.Proof.GraphAlgebra
import proofs.«142887_j30863634989345_2_alg».proof.Proof.GraphFinite
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs the kernel's "project, then aggregate" and the reference's "aggregate, then project" are the same
    array: both runs end at their function of the arguments (the kernel's read off its frame run, the reference's off
    its straight-line run), and entry by entry the two functions agree because every input entry is a real number. -/
theorem algebraic : Cert.algebraic_KernelIdeal_ReferenceIdeal := by
  intro m ρ m' ρ' hpre hagree
  refine ⟨fun c => Cert.Graph.Kernel.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.Graph.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6⟩ := hagree c
  rw [g0, g1, g2, g3, g4, g5, g6, Cert.ReferenceIdeal.Read.val_main_v14_eq]
  obtain ⟨r0, r1, r2, r3, r4, r5, r6⟩ := Cert.Graph.Pre.allReal_of_pre _ _ _ _ _ _ _ (hpre c)
  refine funext fun (j : Cert.ReferenceIdeal.S4x8x2048x64.Idx) => ?_
  obtain ⟨b, cc, n, o, rfl⟩ : ∃ (b : Fin 4) (cc : Fin 8) (n : Fin 2048) (o : Fin 64), j = ix4 b cc n o :=
    ⟨j 0, j 1, j 2, j 3, eq_ix4 j⟩
  rw [Cert.Graph.Ref.ref_apply]
  exact (Cert.Graph.outK_eq_outR _ _ _ _ _ _ _ (fun a f => r0 _) (fun h f => r1 _) (fun h => r2 _) (fun h f => r3 _)
    (fun h => r4 _) (fun p f => r5 _) n o).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
